-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80x256x1024 : Shape := ⟨3, ![80, 256, 1024]⟩
abbrev S8x512x1024 : Shape := ⟨3, ![8, 512, 1024]⟩
abbrev S80x256 : Shape := ⟨2, ![80, 256]⟩
abbrev S1024x3072 : Shape := ⟨2, ![1024, 3072]⟩
abbrev S1024 : Shape := ⟨1, ![1024]⟩
abbrev S_ : Shape := ⟨0, ![]⟩

class Facts : Prop where
  bcast_S_S80x256x1024 : S_.BroadcastsInDim S80x256x1024 (![] : Fin 0 → Fin S80x256x1024.rank)
  reducesTo_S80x256x1024_S_d0_1_2 : S80x256x1024.ReducesTo [0, 1, 2] S_
  h_S_ : 0 < S_.numel
  bcast_S_S8x512x1024 : S_.BroadcastsInDim S8x512x1024 (![] : Fin 0 → Fin S8x512x1024.rank)
  reducesTo_S8x512x1024_S_d0_1_2 : S8x512x1024.ReducesTo [0, 1, 2] S_
  bcast_S_S1024x3072 : S_.BroadcastsInDim S1024x3072 (![] : Fin 0 → Fin S1024x3072.rank)
  reducesTo_S1024x3072_S_d0_1 : S1024x3072.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S80x256x1024 .f32) (main_arg1 : FVec F S80x256x1024 .f32) (main_arg2 : FVec F S8x512x1024 .f32) (main_arg3 : IVec S80x256 1) (main_arg4 : FVec F S1024x3072 .f32) (main_arg5 : FVec F S1024 .f32) : IVec S_ 1 :=
  let main_v0 : FVec F S80x256x1024 .f32 := Host.absf main_arg0
  let main_cst : FVec F S_ .f32 := constant S_ .f32 0x7F800000#32
  let main_v1 : FVec F S80x256x1024 .f32 := broadcastInDim S80x256x1024 ![] bcast_S_S80x256x1024 main_cst
  let main_v2 : IVec S80x256x1024 1 := cmpf .olt main_v0 main_v1
  let main_c : IVec S_ 1 := constantI S_ 1 1#1
  let main_v3 : IVec S_ 1 := (fun x v => Host.reduce IntOp.andi x v reducesTo_S80x256x1024_S_d0_1_2 h_S_) main_v2 main_c
  let main_v4 : FVec F S80x256x1024 .f32 := Host.absf main_arg1
  let main_cst_0 : FVec F S_ .f32 := constant S_ .f32 0x7F800000#32
  let main_v5 : FVec F S80x256x1024 .f32 := broadcastInDim S80x256x1024 ![] bcast_S_S80x256x1024 main_cst_0
  let main_v6 : IVec S80x256x1024 1 := cmpf .olt main_v4 main_v5
  let main_c_1 : IVec S_ 1 := constantI S_ 1 1#1
  let main_v7 : IVec S_ 1 := (fun x v => Host.reduce IntOp.andi x v reducesTo_S80x256x1024_S_d0_1_2 h_S_) main_v6 main_c_1
  let main_v8 : IVec S_ 1 := andi main_v3 main_v7
  let main_v9 : FVec F S8x512x1024 .f32 := Host.absf main_arg2
  let main_cst_2 : FVec F S_ .f32 := constant S_ .f32 0x7F800000#32
  let main_v10 : FVec F S8x512x1024 .f32 := broadcastInDim S8x512x1024 ![] bcast_S_S8x512x1024 main_cst_2
  let main_v11 : IVec S8x512x1024 1 := cmpf .olt main_v9 main_v10
  let main_c_3 : IVec S_ 1 := constantI S_ 1 1#1
  let main_v12 : IVec S_ 1 := (fun x v => Host.reduce IntOp.andi x v reducesTo_S8x512x1024_S_d0_1_2 h_S_) main_v11 main_c_3
  let main_v13 : IVec S_ 1 := andi main_v8 main_v12
  let main_v14 : FVec F S1024x3072 .f32 := Host.absf main_arg4
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg5 main_v13 main_v16
-- ==== Kernel.lean ====
abbrev S80x256x1024 : Shape := ⟨3, ![80, 256, 1024]⟩
abbrev S8x512x1024 : Shape := ⟨3, ![8, 512, 1024]⟩
abbrev S80x256 : Shape := ⟨2, ![80, 256]⟩
abbrev S1024x3072 : Shape := ⟨2, ![1024, 3072]⟩
abbrev S1024 : Shape := ⟨1, ![1024]⟩
abbrev S1x1024 : Shape := ⟨2, ![1, 1024]⟩
abbrev S80x256x256 : Shape := ⟨3, ![80, 256, 256]⟩
abbrev S80x256x512 : Shape := ⟨3, ![80, 256, 512]⟩
abbrev S1x256x1024 : Shape := ⟨3, ![1, 256, 1024]⟩
abbrev S1x512x1024 : Shape := ⟨3, ![1, 512, 1024]⟩
abbrev S1x256x256 : Shape := ⟨3, ![1, 256, 256]⟩
abbrev S1x256x512 : Shape := ⟨3, ![1, 256, 512]⟩
abbrev S256x1024 : Shape := ⟨2, ![256, 1024]⟩
abbrev S512x1024 : Shape := ⟨2, ![512, 1024]⟩
abbrev S256x256 : Shape := ⟨2, ![256, 256]⟩
abbrev S256x512 : Shape := ⟨2, ![256, 512]⟩
abbrev S256 : Shape := ⟨1, ![256]⟩
abbrev S256x1 : Shape := ⟨2, ![256, 1]⟩
abbrev S256x3072 : Shape := ⟨2, ![256, 3072]⟩

abbrev nBuf : Space → Nat
  | .hbm => 11
  | .vmem => 14
  | .smem => 0
  | _ => 0

abbrev bufTy : (tb : Table) → Fin (tcTables nBuf tb) → BufTy
  | .hbm, ⟨0, _⟩ => ⟨S80x256x1024, .f32⟩
  | .hbm, ⟨1, _⟩ => ⟨S80x256x1024, .f32⟩
  | .hbm, ⟨2, _⟩ => ⟨S8x512x1024, .f32⟩
  | .hbm, ⟨3, _⟩ => ⟨S80x256, .i1⟩
  | .hbm, ⟨4, _⟩ => ⟨S1024x3072, .f32⟩
  | .hbm, ⟨5, _⟩ => ⟨S1024, .f32⟩
  | .hbm, ⟨6, _⟩ => ⟨S1024x3072, .bf16⟩
  | .hbm, ⟨7, _⟩ => ⟨S1x1024, .f32⟩
  | .hbm, ⟨8, _⟩ => ⟨S80x256x1024, .f32⟩
  | .hbm, ⟨9, _⟩ => ⟨S80x256x256, .f32⟩
  | .hbm, ⟨10, _⟩ => ⟨S80x256x512, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x512x1024, .f32⟩
  | .local _ .vmem, ⟨5, _⟩ => ⟨S1x512x1024, .f32⟩
  | .local _ .vmem, ⟨6, _⟩ => ⟨S1024x3072, .bf16⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x256, .f32⟩
  | .local _ .vmem, ⟨11, _⟩ => ⟨S1x256x256, .f32⟩
  | .local _ .vmem, ⟨12, _⟩ => ⟨S1x256x512, .f32⟩
  | .local _ .vmem, ⟨13, _⟩ => ⟨S1x256x512, .f32⟩
  | _, _ => ⟨S80x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![80], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c10_i32 : BitVec 32 := 10#32
  let v0 : BitVec 32 := Scalar.divsi arg0 c10_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c10_i32 c0_i32_1
  let v7 : BitVec 32 := Scalar.extui v6
  let c0_i32_2 : BitVec 32 := 0#32
  let v8 : BitVec 1 := Scalar.cmpi .slt c10_i32 c0_i32_2
  let v9 : BitVec 32 := Scalar.extui v8
  let v10 : BitVec 32 := Scalar.subi v7 v9
  let v11 : BitVec 1 := Scalar.cmpi .ne v5 v10
  let v12 : BitVec 32 := Scalar.remsi arg0 c10_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S1024_S1x1024 : S1024.ShapeCasts S1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S256x256_S256 : S256x256.Reduces [1] S256
  shapeCasts_S256_S256x1 : S256.ShapeCasts S256x1
  broadcasts_S256x1_S256x256 : S256x1.Broadcasts S256x256
  reduces_S256x512_S256 : S256x512.Reduces [1] S256
  broadcasts_S256x1_S256x512 : S256x1.Broadcasts S256x512
  concatenates_S256x1024_S256x1024_S256x1024_S256x3072_d1 : Shape.Concatenates [S256x1024, S256x1024, S256x1024] S256x3072 1
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S1x256x1024 : S256x1024.ShapeCasts S1x256x1024
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  dot_S256x1024_S256x1024_S256x256_1_1_0_0_n_n_wf : DotDims.WF S256x1024 S256x1024 S256x256 [1] [1] [0] [0] [] []
  dot_S256x1024_S512x1024_S256x512_1_1_0_0_n_n_wf : DotDims.WF S256x1024 S512x1024 S256x512 [1] [1] [0] [0] [] []
  dot_S256x256_S256x1024_S256x1024_1_0_0_1_n_n_wf : DotDims.WF S256x256 S256x1024 S256x1024 [1] [0] [0] [1] [] []
  dot_S256x512_S512x1024_S256x1024_1_0_0_1_n_n_wf : DotDims.WF S256x512 S512x1024 S256x1024 [1] [0] [0] [1] [] []
  dot_S256x3072_S1024x3072_S256x1024_1_1_0_0_n_n_wf : DotDims.WF S256x3072 S1024x3072 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S80x256x1024.size a
  hwx0_0 : ∀ i : grid0.Coords, EltTy.bits .f32 = 32 ∨ (Rect.block (s := S80x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S80x256x1024.size a
  hwx0_1 : ∀ i : grid0.Coords, EltTy.bits .f32 = 32 ∨ (Rect.block (s := S80x256x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x512x1024.size a
  hwx0_2 : ∀ i : grid0.Coords, EltTy.bits .f32 = 32 ∨ (Rect.block (s := S8x512x1024) S1x512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S80x256x1024.size a
  hwx0_5 : ∀ i : grid0.Coords, EltTy.bits .f32 = 32 ∨ (Rect.block (s := S80x256x1024) S1x256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x256.size a ≤ S80x256x256.size a
  hwx0_6 : ∀ i : grid0.Coords, EltTy.bits .f32 = 32 ∨ (Rect.block (s := S80x256x256) S1x256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x512.size a ≤ S80x256x512.size a
  hwx0_7 : ∀ i : grid0.Coords, EltTy.bits .f32 = 32 ∨ (Rect.block (s := S80x256x512) S1x256x512.size (cc0_transform_7 i) (hinb0_7 i)).WholeWords (EltTy.packing .f32)

variable [Facts₀]

def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf
def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x3072_S1024x3072_S256x1024_1_1_0_0_n_n : DotDims S256x3072 S1024x3072 S256x1024 where
  lhsContracting := [1]
  rhsContracting := [1]
  lhsNonContracting := [0]
  rhsNonContracting := [0]
  lhsBatch := []
  rhsBatch := []
  wf := dot_S256x3072_S1024x3072_S256x1024_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x256x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S1x256x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S80x256x1024 : Shape := ⟨3, ![80, 256, 1024]⟩
abbrev S8x512x1024 : Shape := ⟨3, ![8, 512, 1024]⟩
abbrev S80x256 : Shape := ⟨2, ![80, 256]⟩
abbrev S1024x3072 : Shape := ⟨2, ![1024, 3072]⟩
abbrev S1024 : Shape := ⟨1, ![1024]⟩
abbrev S8x10x512x1024 : Shape := ⟨4, ![8, 10, 512, 1024]⟩
abbrev S80x512x1024 : Shape := ⟨3, ![80, 512, 1024]⟩
abbrev S80x256x256 : Shape := ⟨3, ![80, 256, 256]⟩
abbrev S_ : Shape := ⟨0, ![]⟩
abbrev S80x256x1 : Shape := ⟨3, ![80, 256, 1]⟩
abbrev S80x256x512 : Shape := ⟨3, ![80, 256, 512]⟩
abbrev S80x256x3072 : Shape := ⟨3, ![80, 256, 3072]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S80x256x1024, .f32⟩
  | .hbm, ⟨1, _⟩ => ⟨S80x256x1024, .f32⟩
  | .hbm, ⟨2, _⟩ => ⟨S8x512x1024, .f32⟩
  | .hbm, ⟨3, _⟩ => ⟨S80x256, .i1⟩
  | .hbm, ⟨4, _⟩ => ⟨S1024x3072, .f32⟩
  | .hbm, ⟨5, _⟩ => ⟨S1024, .f32⟩
  | .hbm, ⟨6, _⟩ => ⟨S8x10x512x1024, .f32⟩
  | .hbm, ⟨7, _⟩ => ⟨S80x512x1024, .f32⟩
  | .hbm, ⟨8, _⟩ => ⟨S80x256x256, .f32⟩
  | .hbm, ⟨9, _⟩ => ⟨S_, .f32⟩
  | .hbm, ⟨10, _⟩ => ⟨S80x256, .f32⟩
  | .hbm, ⟨11, _⟩ => ⟨S_, .f32⟩
  | .hbm, ⟨12, _⟩ => ⟨S80x256, .f32⟩
  | .hbm, ⟨13, _⟩ => ⟨S80x256, .f32⟩
  | .hbm, ⟨14, _⟩ => ⟨S80x256x1, .f32⟩
  | .hbm, ⟨15, _⟩ => ⟨S80x256x256, .f32⟩
  | .hbm, ⟨16, _⟩ => ⟨S80x256x256, .f32⟩
  | .hbm, ⟨17, _⟩ => ⟨S80x256x256, .f32⟩
  | .hbm, ⟨18, _⟩ => ⟨S_, .f32⟩
  | .hbm, ⟨19, _⟩ => ⟨S80x256, .f32⟩
  | .hbm, ⟨20, _⟩ => ⟨S80x256x1, .f32⟩
  | .hbm, ⟨21, _⟩ => ⟨S80x256x256, .f32⟩
  | .hbm, ⟨22, _⟩ => ⟨S80x256x256, .f32⟩
  | .hbm, ⟨23, _⟩ => ⟨S80x256x512, .f32⟩
  | .hbm, ⟨24, _⟩ => ⟨S_, .f32⟩
  | .hbm, ⟨25, _⟩ => ⟨S80x256, .f32⟩
  | .hbm, ⟨26, _⟩ => ⟨S_, .f32⟩
  | .hbm, ⟨27, _⟩ => ⟨S80x256, .f32⟩
  | .hbm, ⟨28, _⟩ => ⟨S80x256, .f32⟩
  | .hbm, ⟨29, _⟩ => ⟨S80x256x1, .f32⟩
  | .hbm, ⟨30, _⟩ => ⟨S80x256x512, .f32⟩
  | .hbm, ⟨31, _⟩ => ⟨S80x256x512, .f32⟩
  | .hbm, ⟨32, _⟩ => ⟨S80x256x512, .f32⟩
  | .hbm, ⟨33, _⟩ => ⟨S_, .f32⟩
  | .hbm, ⟨34, _⟩ => ⟨S80x256, .f32⟩
  | .hbm, ⟨35, _⟩ => ⟨S80x256x1, .f32⟩
  | .hbm, ⟨36, _⟩ => ⟨S80x256x512, .f32⟩
  | .hbm, ⟨37, _⟩ => ⟨S80x256x512, .f32⟩
  | .hbm, ⟨38, _⟩ => ⟨S80x256x1024, .f32⟩
  | .hbm, ⟨39, _⟩ => ⟨S80x256x1024, .f32⟩
  | .hbm, ⟨40, _⟩ => ⟨S80x256x3072, .f32⟩
  | .hbm, ⟨41, _⟩ => ⟨S80x256x1024, .f32⟩
  | .hbm, ⟨42, _⟩ => ⟨S1x1x1024, .f32⟩
  | .hbm, ⟨43, _⟩ => ⟨S80x256x1024, .f32⟩
  | .hbm, ⟨44, _⟩ => ⟨S80x256x1024, .f32⟩
  | .hbm, ⟨45, _⟩ => ⟨S80x256x1024, .f32⟩
  | _, _ => ⟨S80x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  bcast_S8x512x1024_S8x10x512x1024_0_2_3 : S8x512x1024.BroadcastsInDim S8x10x512x1024 (![0, 2, 3] : Fin 3 → Fin S8x10x512x1024.rank)
  shapeCasts_S8x10x512x1024_S80x512x1024 : S8x10x512x1024.ShapeCasts S80x512x1024
  reducesTo_S80x256x256_S80x256_d2 : S80x256x256.ReducesTo [2] S80x256
  h_S_ : 0 < S_.numel
  bcast_S_S80x256 : S_.BroadcastsInDim S80x256 (![] : Fin 0 → Fin S80x256.rank)
  bcast_S80x256_S80x256x1_0_1 : S80x256.BroadcastsInDim S80x256x1 (![0, 1] : Fin 2 → Fin S80x256x1.rank)
  bcast_S80x256x1_S80x256x256_0_1_2 : S80x256x1.BroadcastsInDim S80x256x256 (![0, 1, 2] : Fin 3 → Fin S80x256x256.rank)
  reducesTo_S80x256x512_S80x256_d2 : S80x256x512.ReducesTo [2] S80x256
  bcast_S80x256x1_S80x256x512_0_1_2 : S80x256x1.BroadcastsInDim S80x256x512 (![0, 1, 2] : Fin 3 → Fin S80x256x512.rank)
  concatenates_S80x256x1024_S80x256x1024_S80x256x1024_S80x256x3072_d2 : Shape.Concatenates [S80x256x1024, S80x256x1024, S80x256x1024] S80x256x3072 2
  bcast_S1024_S1x1x1024_2 : S1024.BroadcastsInDim S1x1x1024 (![2] : Fin 1 → Fin S1x1x1024.rank)
  bcast_S1x1x1024_S80x256x1024_0_1_2 : S1x1x1024.BroadcastsInDim S80x256x1024 (![0, 1, 2] : Fin 3 → Fin S80x256x1024.rank)
  dot_S80x256x1024_S80x256x1024_S80x256x256_2_2_1_1_0_0_wf : DotDims.WF S80x256x1024 S80x256x1024 S80x256x256 [2] [2] [1] [1] [0] [0]
  dot_S80x256x1024_S80x512x1024_S80x256x512_2_2_1_1_0_0_wf : DotDims.WF S80x256x1024 S80x512x1024 S80x256x512 [2] [2] [1] [1] [0] [0]
  dot_S80x256x256_S80x256x1024_S80x256x1024_2_1_1_2_0_0_wf : DotDims.WF S80x256x256 S80x256x1024 S80x256x1024 [2] [1] [1] [2] [0] [0]
  dot_S80x256x512_S80x512x1024_S80x256x1024_2_1_1_2_0_0_wf : DotDims.WF S80x256x512 S80x512x1024 S80x256x1024 [2] [1] [1] [2] [0] [0]
  dot_S80x256x3072_S1024x3072_S80x256x1024_2_1_01_0_n_n_wf : DotDims.WF S80x256x3072 S1024x3072 S80x256x1024 [2] [1] [0, 1] [0] [] []

variable [Facts₀]

def dot_S80x256x1024_S80x256x1024_S80x256x256_2_2_1_1_0_0 : DotDims S80x256x1024 S80x256x1024 S80x256x256 where
  lhsContracting := [2]
  rhsContracting := [2]
  lhsNonContracting := [1]
  rhsNonContracting := [1]
  lhsBatch := [0]
  rhsBatch := [0]
  wf := dot_S80x256x1024_S80x256x1024_S80x256x256_2_2_1_1_0_0_wf
def dot_S80x256x1024_S80x512x1024_S80x256x512_2_2_1_1_0_0 : DotDims S80x256x1024 S80x512x1024 S80x256x512 where
  lhsContracting := [2]
  rhsContracting := [2]
  lhsNonContracting := [1]
  rhsNonContracting := [1]
  lhsBatch := [0]
  rhsBatch := [0]
  wf := dot_S80x256x1024_S80x512x1024_S80x256x512_2_2_1_1_0_0_wf
def dot_S80x256x256_S80x256x1024_S80x256x1024_2_1_1_2_0_0 : DotDims S80x256x256 S80x256x1024 S80x256x1024 where
  lhsContracting := [2]
  rhsContracting := [1]
  lhsNonContracting := [1]
  rhsNonContracting := [2]
  lhsBatch := [0]
  rhsBatch := [0]
  wf := dot_S80x256x256_S80x256x1024_S80x256x1024_2_1_1_2_0_0_wf
def dot_S80x256x512_S80x512x1024_S80x256x1024_2_1_1_2_0_0 : DotDims S80x256x512 S80x512x1024 S80x256x1024 where
  lhsContracting := [2]
  rhsContracting := [1]
  lhsNonContracting := [1]
  rhsNonContracting := [2]
  lhsBatch := [0]
  rhsBatch := [0]
  wf := dot_S80x256x512_S80x512x1024_S80x256x1024_2_1_1_2_0_0_wf
def dot_S80x256x3072_S1024x3072_S80x256x1024_2_1_01_0_n_n : DotDims S80x256x3072 S1024x3072 S80x256x1024 where
  lhsContracting := [2]
  rhsContracting := [1]
  lhsNonContracting := [0, 1]
  rhsNonContracting := [0]
  lhsBatch := []
  rhsBatch := []
  wf := dot_S80x256x3072_S1024x3072_S80x256x1024_2_1_01_0_n_n_wf

class Facts : Prop extends Facts₀ where

variable [Facts]
-- ==== Proof.LibNaryThree.lean ====
/-
  A host operation over a literal family of THREE references — a concatenation of three arrays — read at its result.

  Run over a valuation `F`, an `n`-ary operation's result is its function applied to `fun k => F (xs k)`: the operands'
  contents under a binder. When the operands are themselves results of earlier operations, nothing can go on rewriting
  `F (xs k)` there, because `xs k` is not a literal reference. For a literal family of three the function's argument is
  the same family written out, each operand's contents at its own reference (`Fin.cons` three times), and every one of
  them can be rewritten further. The library states this for four operands; this is the statement for three, with the
  form a `simp` pass can use (the result's reference un-indexed, as the library's primed lemmas are), and the one-pass
  tactic over the library's result lemmas with it in place of the binder form. Also: a line of operations split in two runs as
  its first part and then its second (`after_append`), so that the part before such an operation can be read on its own.
-/
import Idealize.ShloMosaic.Lib.StableHlo.Run

noncomputable section

namespace Idealize.ShloMosaic.StableHlo.NaryThree

open Idealize.ShloMosaic Idealize.ShloMosaic.StableHlo

variable {nD : Nat} {τ : Topo} {sig : RefSig} {Val : EltTy → Type} {x a b y : Ref sig .tc}

/-- The result of an operation over the literal family `![x, a, b]`: its function of the three operands' contents, each
    read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result's reference un-indexed, for a `simp` pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The buffers after two lines of operations run one after the other: the second line's, from the first line's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo.NaryThree

namespace Idealize.ShloMosaic.StableHlo

/-- The buffers after a line of host operations, by one `simp` pass over the result lemmas, a three- or four-operand
    operation's operands written out so that the pass goes on into them. -/
macro "after_results_simp3" : tactic =>
  `(tactic| (simp (disch := decide) only [after_cons, after_nil,
      nullary_result', unary_result', binary_result', ternary_result', quaternary_result', reshape_result', nary4_result',
      Idealize.ShloMosaic.StableHlo.NaryThree.nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefSplit.lean ====
/-
  The reference's line of forty host operations, read in two parts.

  Operation 35 joins three arrays along their last axis: the queries, the context over the first keys and the context over
  the second keys. What it reads was written by the thirty-four operations before it, and what follows it (the product with
  the weights, the bias, `tanh`) reads only its result, the weights and the bias. So the last result is the last six
  operations' function of five buffers as the first thirty-four leave them: the three arguments among them are untouched, and
  the two contexts are the composed terms of the operations that compute them. A line of operations run in two parts is the
  second part run from what the first part leaves (`after_append`).
-/
import proofs.«172039_j73813307949260_1_alg».proof.Proof.RefOps
import proofs.«172039_j73813307949260_1_alg».proof.Proof.LibNaryThree

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Operations 1–34 of @main: everything before the join. -/
abbrev opsHead : List (HloOp τ sig (Elt F)) :=
  [ unary main_arg2 main_v0 (broadcastInDim S8x10x512x1024 ![0, 2, 3] bcast_S8x512x1024_S8x10x512x1024_0_2_3 : (⟨S8x512x1024, .f32⟩ : BufTy).Contents (Elt F) → (⟨S8x10x512x1024, .f32⟩ : BufTy).Contents (Elt F)),
    reshape main_v0 main_v1 rfl shapeCasts_S8x10x512x1024_S80x512x1024,
    binary main_arg0 main_arg1 main_v2 ((fun l r => Host.dotGeneral dot_S80x256x1024_S80x256x1024_S80x256x256_2_2_1_1_0_0 none l r) : (⟨S80x256x1024, .f32⟩ : BufTy).Contents (Elt F) → (⟨S80x256x1024, .f32⟩ : BufTy).Contents (Elt F) → (⟨S80x256x256, .f32⟩ : BufTy).Contents (Elt F)),
    nullary main_cst (constant S_ .f32 0xFF800000#32),
    binary main_v2 main_cst main_v3 ((fun x v => Host.reduce FloatOps.maximumf x v reducesTo_S80x256x256_S80x256_d2 h_S_) : (⟨S80x256x256, .f32⟩ : BufTy).Contents (Elt F) → (⟨S_, .f32⟩ : BufTy).Contents (Elt F) → (⟨S80x256, .f32⟩ : BufTy).Contents (Elt F)),
    nullary main_cst_0 (constant S_ .f32 0xFF800000#32),
    unary main_cst_0 main_v4 (broadcastInDim S80x256 ![] bcast_S_S80x256 : (⟨S_, .f32⟩ : BufTy).Contents (Elt F) → (⟨S80x256, .f32⟩ : BufTy).Contents (Elt F)),
    binary main_v4 main_v3 main_v5 (maximumf : (⟨S80x256, .f32⟩ : BufTy).Contents (Elt F) → (⟨S80x256, .f32⟩ : BufTy).Contents (Elt F) → (⟨S80x256, .f32⟩ : BufTy).Contents (Elt F)),
    unary main_v5 main_v6 (broadcastInDim S80x256x1 ![0, 1] bcast_S80x256_S80x256x1_0_1 : (⟨S80x256, .f32⟩ : BufTy).Contents (Elt F) → (⟨S80x256x1, .f32⟩ : BufTy).Contents (Elt F)),
    unary main_v6 main_v7 (broadcastInDim S80x256x256 ![0, 1, 2] bcast_S80x256x1_S80x256x256_0_1_2 : (⟨S80x256x1, .f32⟩ : BufTy).Contents (Elt F) → (⟨S80x256x256, .f32⟩ : BufTy).Contents (Elt F)),
    binary main_v2 main_v7 main_v8 (subf : (⟨S80x256x256, .f32⟩ : BufTy).Contents (Elt F) → (⟨S80x256x256, .f32⟩ : BufTy).Contents (Elt F) → (⟨S80x256x256, .f32⟩ : BufTy).Contents (Elt F)),
    unary main_v8 main_v9 (Host.exp : (⟨S80x256x256, .f32⟩ : BufTy).Contents (Elt F) → (⟨S80x256x256, .f32⟩ : BufTy).Contents (Elt F)),
    nullary main_cst_1 (constant S_ .f32 0x00000000#32),
    binary main_v9 main_cst_1 main_v10 ((fun x v => Host.reduceAdd x v reducesTo_S80x256x256_S80x256_d2 h_S_) : (⟨S80x256x256, .f32⟩ : BufTy).Contents (Elt F) → (⟨S_, .f32⟩ : BufTy).Contents (Elt F) → (⟨S80x256, .f32⟩ : BufTy).Contents (Elt F)),
    unary main_v10 main_v11 (broadcastInDim S80x256x1 ![0, 1] bcast_S80x256_S80x256x1_0_1 : (⟨S80x256, .f32⟩ : BufTy).Contents (Elt F) → (⟨S80x256x1, .f32⟩ : BufTy).Contents (Elt F)),
    unary main_v11 main_v12 (broadcastInDim S80x256x256 ![0, 1, 2] bcast_S80x256x1_S80x256x256_0_1_2 : (⟨S80x256x1, .f32⟩ : BufTy).Contents (Elt F) → (⟨S80x256x256, .f32⟩ : BufTy).Contents (Elt F)),
    binary main_v9 main_v12 main_v13 (Host.divf : (⟨S80x256x256, .f32⟩ : BufTy).Contents (Elt F) → (⟨S80x256x256, .f32⟩ : BufTy).Contents (Elt F) → (⟨S80x256x256, .f32⟩ : BufTy).Contents (Elt F)),
    binary main_arg0 main_v1 main_v14 ((fun l r => Host.dotGeneral dot_S80x256x1024_S80x512x1024_S80x256x512_2_2_1_1_0_0 none l r) : (⟨S80x256x1024, .f32⟩ : BufTy).Contents (Elt F) → (⟨S80x512x1024, .f32⟩ : BufTy).Contents (Elt F) → (⟨S80x256x512, .f32⟩ : BufTy).Contents (Elt F)),
    nullary main_cst_2 (constant S_ .f32 0xFF800000#32),
    binary main_v14 main_cst_2 main_v15 ((fun x v => Host.reduce FloatOps.maximumf x v reducesTo_S80x256x512_S80x256_d2 h_S_) : (⟨S80x256x512, .f32⟩ : BufTy).Contents (Elt F) → (⟨S_, .f32⟩ : BufTy).Contents (Elt F) → (⟨S80x256, .f32⟩ : BufTy).Contents (Elt F)),
    nullary main_cst_3 (constant S_ .f32 0xFF800000#32),
    unary main_cst_3 main_v16 (broadcastInDim S80x256 ![] bcast_S_S80x256 : (⟨S_, .f32⟩ : BufTy).Contents (Elt F) → (⟨S80x256, .f32⟩ : BufTy).Contents (Elt F)),
    binary main_v16 main_v15 main_v17 (maximumf : (⟨S80x256, .f32⟩ : BufTy).Contents (Elt F) → (⟨S80x256, .f32⟩ : BufTy).Contents (Elt F) → (⟨S80x256, .f32⟩ : BufTy).Contents (Elt F)),
    unary main_v17 main_v18 (broadcastInDim S80x256x1 ![0, 1] bcast_S80x256_S80x256x1_0_1 : (⟨S80x256, .f32⟩ : BufTy).Contents (Elt F) → (⟨S80x256x1, .f32⟩ : BufTy).Contents (Elt F)),
    unary main_v18 main_v19 (broadcastInDim S80x256x512 ![0, 1, 2] bcast_S80x256x1_S80x256x512_0_1_2 : (⟨S80x256x1, .f32⟩ : BufTy).Contents (Elt F) → (⟨S80x256x512, .f32⟩ : BufTy).Contents (Elt F)),
    binary main_v14 main_v19 main_v20 (subf : (⟨S80x256x512, .f32⟩ : BufTy).Contents (Elt F) → (⟨S80x256x512, .f32⟩ : BufTy).Contents (Elt F) → (⟨S80x256x512, .f32⟩ : BufTy).Contents (Elt F)),
    unary main_v20 main_v21 (Host.exp : (⟨S80x256x512, .f32⟩ : BufTy).Contents (Elt F) → (⟨S80x256x512, .f32⟩ : BufTy).Contents (Elt F)),
    nullary main_cst_4 (constant S_ .f32 0x00000000#32),
    binary main_v21 main_cst_4 main_v22 ((fun x v => Host.reduceAdd x v reducesTo_S80x256x512_S80x256_d2 h_S_) : (⟨S80x256x512, .f32⟩ : BufTy).Contents (Elt F) → (⟨S_, .f32⟩ : BufTy).Contents (Elt F) → (⟨S80x256, .f32⟩ : BufTy).Contents (Elt F)),
    unary main_v22 main_v23 (broadcastInDim S80x256x1 ![0, 1] bcast_S80x256_S80x256x1_0_1 : (⟨S80x256, .f32⟩ : BufTy).Contents (Elt F) → (⟨S80x256x1, .f32⟩ : BufTy).Contents (Elt F)),
    unary main_v23 main_v24 (broadcastInDim S80x256x512 ![0, 1, 2] bcast_S80x256x1_S80x256x512_0_1_2 : (⟨S80x256x1, .f32⟩ : BufTy).Contents (Elt F) → (⟨S80x256x512, .f32⟩ : BufTy).Contents (Elt F)),
    binary main_v21 main_v24 main_v25 (Host.divf : (⟨S80x256x512, .f32⟩ : BufTy).Contents (Elt F) → (⟨S80x256x512, .f32⟩ : BufTy).Contents (Elt F) → (⟨S80x256x512, .f32⟩ : BufTy).Contents (Elt F)),
    binary main_v13 main_arg1 main_v26 ((fun l r => Host.dotGeneral dot_S80x256x256_S80x256x1024_S80x256x1024_2_1_1_2_0_0 none l r) : (⟨S80x256x256, .f32⟩ : BufTy).Contents (Elt F) → (⟨S80x256x1024, .f32⟩ : BufTy).Contents (Elt F) → (⟨S80x256x1024, .f32⟩ : BufTy).Contents (Elt F)),
    binary main_v25 main_v1 main_v27 ((fun l r => Host.dotGeneral dot_S80x256x512_S80x512x1024_S80x256x1024_2_1_1_2_0_0 none l r) : (⟨S80x256x512, .f32⟩ : BufTy).Contents (Elt F) → (⟨S80x512x1024, .f32⟩ : BufTy).Contents (Elt F) → (⟨S80x256x1024, .f32⟩ : BufTy).Contents (Elt F)) ]

/-- Operations 35–40 of @main: the join and what follows. -/
abbrev opsTail : List (HloOp τ sig (Elt F)) :=
  [ nary ![main_arg0, main_v26, main_v27] main_v28 (fun u => concatenate S80x256x3072 2 [⟨S80x256x1024, u 0⟩, ⟨S80x256x1024, u 1⟩, ⟨S80x256x1024, u 2⟩] concatenates_S80x256x1024_S80x256x1024_S80x256x1024_S80x256x3072_d2),
    binary main_v28 main_arg4 main_v29 ((fun l r => Host.dotGeneral dot_S80x256x3072_S1024x3072_S80x256x1024_2_1_01_0_n_n none l r) : (⟨S80x256x3072, .f32⟩ : BufTy).Contents (Elt F) → (⟨S1024x3072, .f32⟩ : BufTy).Contents (Elt F) → (⟨S80x256x1024, .f32⟩ : BufTy).Contents (Elt F)),
    unary main_arg5 main_v30 (broadcastInDim S1x1x1024 ![2] bcast_S1024_S1x1x1024_2 : (⟨S1024, .f32⟩ : BufTy).Contents (Elt F) → (⟨S1x1x1024, .f32⟩ : BufTy).Contents (Elt F)),
    unary main_v30 main_v31 (broadcastInDim S80x256x1024 ![0, 1, 2] bcast_S1x1x1024_S80x256x1024_0_1_2 : (⟨S1x1x1024, .f32⟩ : BufTy).Contents (Elt F) → (⟨S80x256x1024, .f32⟩ : BufTy).Contents (Elt F)),
    binary main_v29 main_v31 main_v32 (addf : (⟨S80x256x1024, .f32⟩ : BufTy).Contents (Elt F) → (⟨S80x256x1024, .f32⟩ : BufTy).Contents (Elt F) → (⟨S80x256x1024, .f32⟩ : BufTy).Contents (Elt F)),
    unary main_v32 main_v33 (Host.tanh : (⟨S80x256x1024, .f32⟩ : BufTy).Contents (Elt F) → (⟨S80x256x1024, .f32⟩ : BufTy).Contents (Elt F)) ]

set_option maxRecDepth 8192 in
/-- @main's operations are the two parts one after the other. -/
theorem ops_split : (ops : List (HloOp τ sig (Elt F))) = opsHead ++ opsTail := rfl

/-- The first part writes no argument: the queries are as launched. -/
theorem head_main_arg0 (m : (ℓ : Loc nD τ sig) → Buf (Elt F) ℓ) (c : Dev nD) :
    after (opsHead (F := F)) (launchContents m c) (Proc.devRef .tc main_arg0) = m ((c.tc : Thread nD τ).loc main_arg0) := by
  after_results_simp <;> rfl

/-- The weights are as launched. -/
theorem head_main_arg4 (m : (ℓ : Loc nD τ sig) → Buf (Elt F) ℓ) (c : Dev nD) :
    after (opsHead (F := F)) (launchContents m c) (Proc.devRef .tc main_arg4) = m ((c.tc : Thread nD τ).loc main_arg4) := by
  after_results_simp <;> rfl

/-- The bias is as launched. -/
theorem head_main_arg5 (m : (ℓ : Loc nD τ sig) → Buf (Elt F) ℓ) (c : Dev nD) :
    after (opsHead (F := F)) (launchContents m c) (Proc.devRef .tc main_arg5) = m ((c.tc : Thread nD τ).loc main_arg5) := by
  after_results_simp <;> rfl

set_option maxRecDepth 8192 in
set_option maxHeartbeats 2000000 in
/-- The context over the first keys after the first part: the product of the first softmax with the first keys. -/
theorem head_main_v26 (m : (ℓ : Loc nD τ sig) → Buf (Elt F) ℓ) (c : Dev nD) :
    after (opsHead (F := F)) (launchContents m c) (Proc.devRef .tc main_v26) = Host.dotGeneral dot_S80x256x256_S80x256x1024_S80x256x1024_2_1_1_2_0_0 none (Host.divf (Host.exp (subf (Host.dotGeneral dot_S80x256x1024_S80x256x1024_S80x256x256_2_2_1_1_0_0 none (m ((c.tc : Thread nD τ).loc main_arg0)) (m ((c.tc : Thread nD τ).loc main_arg1))) (broadcastInDim S80x256x256 ![0, 1, 2] bcast_S80x256x1_S80x256x256_0_1_2 (broadcastInDim S80x256x1 ![0, 1] bcast_S80x256_S80x256x1_0_1 (maximumf (broadcastInDim S80x256 ![] bcast_S_S80x256 (constant S_ .f32 0xFF800000#32)) (Host.reduce FloatOps.maximumf (Host.dotGeneral dot_S80x256x1024_S80x256x1024_S80x256x256_2_2_1_1_0_0 none (m ((c.tc : Thread nD τ).loc main_arg0)) (m ((c.tc : Thread nD τ).loc main_arg1))) (constant S_ .f32 0xFF800000#32) reducesTo_S80x256x256_S80x256_d2 h_S_)))))) (broadcastInDim S80x256x256 ![0, 1, 2] bcast_S80x256x1_S80x256x256_0_1_2 (broadcastInDim S80x256x1 ![0, 1] bcast_S80x256_S80x256x1_0_1 (Host.reduceAdd (Host.exp (subf (Host.dotGeneral dot_S80x256x1024_S80x256x1024_S80x256x256_2_2_1_1_0_0 none (m ((c.tc : Thread nD τ).loc main_arg0)) (m ((c.tc : Thread nD τ).loc main_arg1))) (broadcastInDim S80x256x256 ![0, 1, 2] bcast_S80x256x1_S80x256x256_0_1_2 (broadcastInDim S80x256x1 ![0, 1] bcast_S80x256_S80x256x1_0_1 (maximumf (broadcastInDim S80x256 ![] bcast_S_S80x256 (constant S_ .f32 0xFF800000#32)) (Host.reduce FloatOps.maximumf (Host.dotGeneral dot_S80x256x1024_S80x256x1024_S80x256x256_2_2_1_1_0_0 none (m ((c.tc : Thread nD τ).loc main_arg0)) (m ((c.tc : Thread nD τ).loc main_arg1))) (constant S_ .f32 0xFF800000#32) reducesTo_S80x256x256_S80x256_d2 h_S_)))))) (constant S_ .f32 0x00000000#32) reducesTo_S80x256x256_S80x256_d2 h_S_)))) (m ((c.tc : Thread nD τ).loc main_arg1)) := by
  after_results_simp <;> rfl

set_option maxRecDepth 8192 in
set_option maxHeartbeats 2000000 in
/-- The context over the second keys after the first part: the product of the second softmax with the repeated second keys. -/
theorem head_main_v27 (m : (ℓ : Loc nD τ sig) → Buf (Elt F) ℓ) (c : Dev nD) :
    after (opsHead (F := F)) (launchContents m c) (Proc.devRef .tc main_v27) = Host.dotGeneral dot_S80x256x512_S80x512x1024_S80x256x1024_2_1_1_2_0_0 none (Host.divf (Host.exp (subf (Host.dotGeneral dot_S80x256x1024_S80x512x1024_S80x256x512_2_2_1_1_0_0 none (m ((c.tc : Thread nD τ).loc main_arg0)) (shapeCast _ (broadcastInDim S8x10x512x1024 ![0, 2, 3] bcast_S8x512x1024_S8x10x512x1024_0_2_3 (m ((c.tc : Thread nD τ).loc main_arg2))) shapeCasts_S8x10x512x1024_S80x512x1024)) (broadcastInDim S80x256x512 ![0, 1, 2] bcast_S80x256x1_S80x256x512_0_1_2 (broadcastInDim S80x256x1 ![0, 1] bcast_S80x256_S80x256x1_0_1 (maximumf (broadcastInDim S80x256 ![] bcast_S_S80x256 (constant S_ .f32 0xFF800000#32)) (Host.reduce FloatOps.maximumf (Host.dotGeneral dot_S80x256x1024_S80x512x1024_S80x256x512_2_2_1_1_0_0 none (m ((c.tc : Thread nD τ).loc main_arg0)) (shapeCast _ (broadcastInDim S8x10x512x1024 ![0, 2, 3] bcast_S8x512x1024_S8x10x512x1024_0_2_3 (m ((c.tc : Thread nD τ).loc main_arg2))) shapeCasts_S8x10x512x1024_S80x512x1024)) (constant S_ .f32 0xFF800000#32) reducesTo_S80x256x512_S80x256_d2 h_S_)))))) (broadcastInDim S80x256x512 ![0, 1, 2] bcast_S80x256x1_S80x256x512_0_1_2 (broadcastInDim S80x256x1 ![0, 1] bcast_S80x256_S80x256x1_0_1 (Host.reduceAdd (Host.exp (subf (Host.dotGeneral dot_S80x256x1024_S80x512x1024_S80x256x512_2_2_1_1_0_0 none (m ((c.tc : Thread nD τ).loc main_arg0)) (shapeCast _ (broadcastInDim S8x10x512x1024 ![0, 2, 3] bcast_S8x512x1024_S8x10x512x1024_0_2_3 (m ((c.tc : Thread nD τ).loc main_arg2))) shapeCasts_S8x10x512x1024_S80x512x1024)) (broadcastInDim S80x256x512 ![0, 1, 2] bcast_S80x256x1_S80x256x512_0_1_2 (broadcastInDim S80x256x1 ![0, 1] bcast_S80x256_S80x256x1_0_1 (maximumf (broadcastInDim S80x256 ![] bcast_S_S80x256 (constant S_ .f32 0xFF800000#32)) (Host.reduce FloatOps.maximumf (Host.dotGeneral dot_S80x256x1024_S80x512x1024_S80x256x512_2_2_1_1_0_0 none (m ((c.tc : Thread nD τ).loc main_arg0)) (shapeCast _ (broadcastInDim S8x10x512x1024 ![0, 2, 3] bcast_S8x512x1024_S8x10x512x1024_0_2_3 (m ((c.tc : Thread nD τ).loc main_arg2))) shapeCasts_S8x10x512x1024_S80x512x1024)) (constant S_ .f32 0xFF800000#32) reducesTo_S80x256x512_S80x256_d2 h_S_)))))) (constant S_ .f32 0x00000000#32) reducesTo_S80x256x512_S80x256_d2 h_S_)))) (shapeCast _ (broadcastInDim S8x10x512x1024 ![0, 2, 3] bcast_S8x512x1024_S8x10x512x1024_0_2_3 (m ((c.tc : Thread nD τ).loc main_arg2))) shapeCasts_S8x10x512x1024_S80x512x1024) := by
  after_results_simp <;> rfl

/-- The second part's last result over any contents `W` of the buffers it finds: `tanh` of the joined array's product with the
    weights, plus the bias spread over batches and rows. -/
theorem tail_main_v33 (W : Valuation τ sig (Elt F)) :
    after (opsTail (F := F)) W (Proc.devRef .tc main_v33) = Host.tanh (addf (Host.dotGeneral dot_S80x256x3072_S1024x3072_S80x256x1024_2_1_01_0_n_n none (concatenate S80x256x3072 2 [⟨S80x256x1024, W (Proc.devRef .tc main_arg0)⟩, ⟨S80x256x1024, W (Proc.devRef .tc main_v26)⟩, ⟨S80x256x1024, W (Proc.devRef .tc main_v27)⟩] concatenates_S80x256x1024_S80x256x1024_S80x256x1024_S80x256x3072_d2) (W (Proc.devRef .tc main_arg4))) (broadcastInDim S80x256x1024 ![0, 1, 2] bcast_S1x1x1024_S80x256x1024_0_1_2 (broadcastInDim S1x1x1024 ![2] bcast_S1024_S1x1x1024_2 (W (Proc.devRef .tc main_arg5))))) := by
  after_results_simp3 <;> rfl

set_option maxRecDepth 8192 in
/-- The last result after the whole line: the second part's function of what the first part leaves, which is the composed
    term of the arguments. -/
theorem main_v33_eq (m : (ℓ : Loc nD τ sig) → Buf (Elt F) ℓ) (c : Dev nD) :
    after (ops (F := F)) (launchContents m c) (Proc.devRef .tc main_v33) = res_main_v33 m c := by
  rw [ops_split, NaryThree.after_append, tail_main_v33, head_main_arg0, head_main_v26, head_main_v27, head_main_arg4, head_main_arg5]
  unfold res_main_v33
  rfl

end Cert.ReferenceIdeal.RunP

end
-- ==== Proof.Attention.lean ====
/-
  The mathematics both programs compute, for one batch row, over the extended reals.

  A row of scores `f : Fin n → EReal` is turned into weights by the softmax taken the stable way: subtract the row's
  maximum `M` (folded from the pattern of `-∞`), exponentiate, divide by the sum of the exponentials. The attention of
  queries `Q` (rows `l`, depth `d`) over keys `K` (rows `s`, depth `d`) weighs row `l`'s scores
  `∑ d, Q l d * K s d`; the context of row `l` is the weighted sum of the keys' rows. The result row is `tanh` of the
  product of the three-part row (the query row, its context over the first keys, its context over the second keys, laid end
  to end: 3 · 1024 entries) with the weights `W h ·`, plus the bias `β h`.

  Everything is a finite sum or a fold of `max` over a `Fin`, so the order in which a program adds or compares does not
  matter: `EReal` is a commutative monoid under `+` and `max`.
-/
import Idealize.ShloMosaic.PureOps.Ideal
import Idealize.ShloMosaic.PureOps.Ideal.Laws

noncomputable section

namespace Cert.Attention

open Idealize.ShloMosaic

/-- The maximum of a row of scores, folded from the value the pattern of `-∞` denotes. -/
def rowMax {n : ℕ} (f : Fin n → EReal) : EReal :=
  (Finset.univ : Finset (Fin n)).fold max (Ideal.ofBits .f32 0xFF800000#32) f

/-- The exponential of a score less the row's maximum. -/
def shiftedExp {n : ℕ} (f : Fin n → EReal) (s : Fin n) : EReal := Ideal.exp (f s - rowMax f)

/-- The softmax weight of entry `s` of a row: its shifted exponential over the sum of the row's. -/
def softmax {n : ℕ} (f : Fin n → EReal) (s : Fin n) : EReal :=
  Ideal.div (shiftedExp f s) (∑ k : Fin n, shiftedExp f k)

/-- Row `l` of the queries against row `s` of the keys: the inner product over the depth. -/
def scores {L S D : ℕ} (Q : Fin L → Fin D → EReal) (K : Fin S → Fin D → EReal) (l : Fin L) (s : Fin S) : EReal :=
  ∑ d : Fin D, Q l d * K s d

/-- The attention weights of query row `l`: the softmax of its scores. -/
def attn {L S D : ℕ} (Q : Fin L → Fin D → EReal) (K : Fin S → Fin D → EReal) (l : Fin L) (s : Fin S) : EReal :=
  softmax (scores Q K l) s

/-- The context of query row `l`: the keys' rows weighted by its attention. -/
def ctx {L S D : ℕ} (Q : Fin L → Fin D → EReal) (K : Fin S → Fin D → EReal) (l : Fin L) (d : Fin D) : EReal :=
  ∑ s : Fin S, attn Q K l s * K s d

/-- Three rows of 1024 entries laid end to end. -/
def cat3 (u v w : Fin 1024 → EReal) (k : Fin 3072) : EReal :=
  if h : k.val < 1024 then u ⟨k.val, h⟩
  else if h2 : k.val < 2048 then v ⟨k.val - 1024, by omega⟩
  else w ⟨k.val - 2048, by have := k.isLt; omega⟩

/-- The three-part row of query row `l`: the row itself, its context over `K0`, its context over `K1`. -/
def joined {S0 S1 : ℕ} (Q : Fin 256 → Fin 1024 → EReal) (K0 : Fin S0 → Fin 1024 → EReal) (K1 : Fin S1 → Fin 1024 → EReal)
    (l : Fin 256) (k : Fin 3072) : EReal :=
  cat3 (Q l) (ctx Q K0 l) (ctx Q K1 l) k

/-- The projected row before the bias: the three-part row against row `h` of the weights. -/
def projected {S0 S1 : ℕ} (Q : Fin 256 → Fin 1024 → EReal) (K0 : Fin S0 → Fin 1024 → EReal) (K1 : Fin S1 → Fin 1024 → EReal)
    (W : Fin 1024 → Fin 3072 → EReal) (l : Fin 256) (h : Fin 1024) : EReal :=
  ∑ k : Fin 3072, joined Q K0 K1 l k * W h k

/-- The result: `tanh` of the projected row plus the bias. -/
def result {S0 S1 : ℕ} (Q : Fin 256 → Fin 1024 → EReal) (K0 : Fin S0 → Fin 1024 → EReal) (K1 : Fin S1 → Fin 1024 → EReal)
    (W : Fin 1024 → Fin 3072 → EReal) (β : Fin 1024 → EReal) (l : Fin 256) (h : Fin 1024) : EReal :=
  Ideal.tanh (projected Q K0 K1 W l h + β h)

/-- A fold of `max` is at least its starting value, so taking the maximum with that value once more changes nothing. -/
theorem max_rowMax {n : ℕ} (f : Fin n → EReal) :
    max (Ideal.ofBits .f32 0xFF800000#32) (rowMax f) = rowMax f :=
  max_eq_right ((Finset.le_fold_max _).mpr (Or.inl le_rfl))

/-- The softmax weight from the row's maximum and the row's sum of shifted exponentials, however they were obtained. -/
theorem softmax_of {n : ℕ} (f : Fin n → EReal) (s : Fin n) (M Z : EReal) (hM : M = rowMax f)
    (hZ : Z = ∑ k : Fin n, Ideal.exp (f k - M)) :
    Ideal.div (Ideal.exp (f s - M)) Z = softmax f s := by
  subst hM; subst hZ; rfl

end Cert.Attention

end
-- ==== Proof.ArrayAttention.lean ====
/-
  The three result arrays as functions of the five argument arrays, index by index.

  The queries `x` and the first keys `c0` are [80, 256, 1024]; batch `b` uses their row `b`. The second keys `c1` are
  [8, 512, 1024], one row per group of ten consecutive batches: batch `b` uses row `b / 10`. The weights `w` are
  [1024, 3072] and the bias `β` is [1024]. At `(b, l, ·)` the arrays hold, of batch `b`'s rows, the result row, the
  attention over the first keys and the attention over the second keys of `Attention.lean`.
-/
import proofs.«172039_j73813307949260_1_alg».proof.Proof.Attention
import Idealize.ShloMosaic.Lib.ValueIdx

noncomputable section

namespace Cert.Attention

open Idealize.ShloMosaic Idealize.ShloMosaic.ValueIdx

/-- Batch `b`'s rows of an [80, R, 1024] array. -/
def batchRows {R : ℕ} (x : (⟨3, ![80, R, 1024]⟩ : Shape).Idx → EReal) (b : Fin 80) : Fin R → Fin 1024 → EReal :=
  fun l d => x (ix3 b l d)

/-- The group of batch `b`: ten consecutive batches share one. -/
def groupOf (b : Fin 80) : Fin 8 := ⟨b.val / 10, by have := b.isLt; omega⟩

/-- The rows of batch `b`'s group in the [8, 512, 1024] array. -/
def groupRows (c1 : (⟨3, ![8, 512, 1024]⟩ : Shape).Idx → EReal) (b : Fin 80) : Fin 512 → Fin 1024 → EReal :=
  fun s d => c1 (ix3 (groupOf b) s d)

/-- The weights by output row and joined column. -/
def weightsOf (w : (⟨2, ![1024, 3072]⟩ : Shape).Idx → EReal) : Fin 1024 → Fin 3072 → EReal := fun h k => w (ix2 h k)

/-- The bias by output row. -/
def biasOf (β : (⟨1, ![1024]⟩ : Shape).Idx → EReal) : Fin 1024 → EReal := fun h => β (ix1 h)

/-- The attention over the first keys, [80, 256, 256]. -/
def exAttnArr (x c0 : (⟨3, ![80, 256, 1024]⟩ : Shape).Idx → EReal) : (⟨3, ![80, 256, 256]⟩ : Shape).Idx → EReal :=
  fun i => attn (batchRows x (i 0)) (batchRows c0 (i 0)) (i 1) (i 2)

/-- The attention over the second keys, [80, 256, 512]. -/
def setAttnArr (x : (⟨3, ![80, 256, 1024]⟩ : Shape).Idx → EReal) (c1 : (⟨3, ![8, 512, 1024]⟩ : Shape).Idx → EReal) :
    (⟨3, ![80, 256, 512]⟩ : Shape).Idx → EReal :=
  fun i => attn (batchRows x (i 0)) (groupRows c1 (i 0)) (i 1) (i 2)

/-- The result, [80, 256, 1024]. -/
def outArr (x c0 : (⟨3, ![80, 256, 1024]⟩ : Shape).Idx → EReal) (c1 : (⟨3, ![8, 512, 1024]⟩ : Shape).Idx → EReal)
    (w : (⟨2, ![1024, 3072]⟩ : Shape).Idx → EReal) (β : (⟨1, ![1024]⟩ : Shape).Idx → EReal) :
    (⟨3, ![80, 256, 1024]⟩ : Shape).Idx → EReal :=
  fun i => result (batchRows x (i 0)) (batchRows c0 (i 0)) (groupRows c1 (i 0)) (weightsOf w) (biasOf β) (i 1) (i 2)

end Cert.Attention

end
-- ==== Proof.RefAttention.lean ====
/-
  The reference program's stages, entry by entry, as the attention functions of the argument arrays' rows.

  The reference works on whole arrays with a leading batch axis. It repeats each group's row of the second keys ten times
  (a broadcast to [8, 10, 512, 1024] and a reshape to [80, 512, 1024]): row `b` of the repeated array is row `b / 10` of
  the original. Its products carry the batch axis along; its softmax is the stable one, with the row maximum taken once
  more against `-∞` (which changes nothing); its join is along the last axis; its bias is broadcast over batches and
  rows. So at `(b, l, ·)` each stage is the function of `Attention.lean` of batch `b`'s rows.
-/
import proofs.«172039_j73813307949260_1_alg».proof.Proof.RefRead
import proofs.«172039_j73813307949260_1_alg».proof.Proof.ArrayAttention
import Idealize.ShloMosaic.PureOps.Reduce

noncomputable section

namespace Cert.ReferenceIdeal.Bridge

open Cert.ReferenceIdeal Cert.ReferenceIdeal.ReadP Idealize.ShloMosaic Idealize.ShloMosaic.ValueIdx Cert.Attention

/-- Row `b` of the repeated second keys is row `b / 10` of the second keys. -/
theorem repeated_apply (x2 : (⟨S8x512x1024, .f32⟩ : BufTy).Contents (Elt Ideal)) (b : Fin 80) (s : Fin 512) (d : Fin 1024) :
    val_main_v1 (F := Ideal) x2 (ix3 b s d) = groupRows x2 b s d := by
  have hb := b.isLt; have hs := s.isLt; have hd := d.isLt
  rw [val_main_v1_apply, val_main_v0_apply]
  unfold groupRows groupOf
  refine congrArg x2 (funext fun a => Fin.ext ?_)
  match a with
  | ⟨0, _⟩ => show ((b.val * 512 + s.val) * 1024 + d.val) / 5242880 = b.val / 10; omega
  | ⟨1, _⟩ => show ((b.val * 512 + s.val) * 1024 + d.val) / 1024 % 512 = s.val; omega
  | ⟨2, _⟩ => show ((b.val * 512 + s.val) * 1024 + d.val) % 1024 = d.val; omega

/-- The scores over the first keys. -/
theorem exScores_apply (x0 x1 : (⟨S80x256x1024, .f32⟩ : BufTy).Contents (Elt Ideal)) (b : Fin 80) (l : Fin 256) (s : Fin 256) :
    val_main_v2 (F := Ideal) x0 x1 (ix3 b l s) = scores (batchRows x0 b) (batchRows x1 b) l s := by
  refine (val_main_v2_apply x0 x1 _).trans (Finset.sum_congr rfl fun k _ => ?_)
  rw [show lidx_main_v2 (ix3 b l s) k = ix3 b l k from funext fun a => Fin.ext (by match a with | ⟨0, _⟩ => rfl | ⟨1, _⟩ => rfl | ⟨2, _⟩ => rfl),
    show ridx_main_v2 (ix3 b l s) k = ix3 b s k from funext fun a => Fin.ext (by match a with | ⟨0, _⟩ => rfl | ⟨1, _⟩ => rfl | ⟨2, _⟩ => rfl)]
  rfl

/-- The scores over the second keys. -/
theorem setScores_apply (x0 : (⟨S80x256x1024, .f32⟩ : BufTy).Contents (Elt Ideal)) (x2 : (⟨S8x512x1024, .f32⟩ : BufTy).Contents (Elt Ideal)) (b : Fin 80) (l : Fin 256) (s : Fin 512) :
    val_main_v14 (F := Ideal) x0 x2 (ix3 b l s) = scores (batchRows x0 b) (groupRows x2 b) l s := by
  refine (val_main_v14_apply x0 x2 _).trans (Finset.sum_congr rfl fun k _ => ?_)
  rw [show lidx_main_v14 (ix3 b l s) k = ix3 b l k from funext fun a => Fin.ext (by match a with | ⟨0, _⟩ => rfl | ⟨1, _⟩ => rfl | ⟨2, _⟩ => rfl),
    show ridx_main_v14 (ix3 b l s) k = ix3 b s k from funext fun a => Fin.ext (by match a with | ⟨0, _⟩ => rfl | ⟨1, _⟩ => rfl | ⟨2, _⟩ => rfl), repeated_apply]
  rfl

/-! ### The first softmax -/

/-- The row maximum: the host's fold of `max` from `-∞` over the row, and once more against `-∞`. -/
theorem exRowMax_apply (x0 x1 : (⟨S80x256x1024, .f32⟩ : BufTy).Contents (Elt Ideal)) (b : Fin 80) (l : Fin 256) :
    val_main_v5 (F := Ideal) x0 x1 (ix2 b l) = rowMax (scores (batchRows x0 b) (batchRows x1 b) l) := by
  have hR : S80x256x256.Reduces [2] S80x256 := by decide
  have h3 : val_main_v3 (F := Ideal) x0 x1 (ix2 b l) = rowMax (scores (batchRows x0 b) (batchRows x1 b) l) := by
    unfold val_main_v3
    refine (Host.reduce_eq_fold_single FloatOps.maximumf _ _ _ hR _ (ix2 b l)).trans ?_
    show Finset.fold max (Ideal.ofBits .f32 0xFF800000#32) (val_main_v2 (F := Ideal) x0 x1 ∘ hR.lift (ix2 b l)) (Finset.univ : Finset (Fin 256))
      = Finset.fold max (Ideal.ofBits .f32 0xFF800000#32) (scores (batchRows x0 b) (batchRows x1 b) l) Finset.univ
    congr 1
    funext k
    show val_main_v2 (F := Ideal) x0 x1 (hR.lift (ix2 b l) k) = _
    rw [show hR.lift (ix2 b l) k = ix3 b l k from funext fun a => Fin.ext (by match a with | ⟨0, _⟩ => rfl | ⟨1, _⟩ => rfl | ⟨2, _⟩ => rfl)]
    exact exScores_apply x0 x1 b l k
  rw [val_main_v5_apply, val_main_v4_apply, val_main_cst_0_apply, h3]
  exact max_rowMax _

/-- The shifted exponential. -/
theorem exExp_apply (x0 x1 : (⟨S80x256x1024, .f32⟩ : BufTy).Contents (Elt Ideal)) (b : Fin 80) (l : Fin 256) (s : Fin 256) :
    val_main_v9 (F := Ideal) x0 x1 (ix3 b l s) = shiftedExp (scores (batchRows x0 b) (batchRows x1 b) l) s := by
  rw [val_main_v9_apply, val_main_v8_apply, val_main_v7_apply, val_main_v6_apply,
    show idx_main_v6 (idx_main_v7 (ix3 b l s)) = ix2 b l from funext fun a => Fin.ext (by match a with | ⟨0, _⟩ => rfl | ⟨1, _⟩ => rfl),
    exRowMax_apply, exScores_apply]
  rfl

/-- The row's sum of shifted exponentials: the host's sum from zero. -/
theorem exSum_apply (x0 x1 : (⟨S80x256x1024, .f32⟩ : BufTy).Contents (Elt Ideal)) (b : Fin 80) (l : Fin 256) :
    val_main_v10 (F := Ideal) x0 x1 (ix2 b l) = ∑ k : Fin 256, shiftedExp (scores (batchRows x0 b) (batchRows x1 b) l) k := by
  rw [val_main_v10_apply]
  show Ideal.ofBits .f32 0x00000000#32 + _ = _
  rw [Ideal.ofBits_zero_f32, zero_add]
  refine Finset.sum_congr rfl fun k _ => ?_
  rw [show idx_main_v10 (ix2 b l) k = ix3 b l k from funext fun a => Fin.ext (by match a with | ⟨0, _⟩ => rfl | ⟨1, _⟩ => rfl | ⟨2, _⟩ => rfl)]
  exact exExp_apply x0 x1 b l k

/-- The weights. -/
theorem exAttn_apply (x0 x1 : (⟨S80x256x1024, .f32⟩ : BufTy).Contents (Elt Ideal)) (b : Fin 80) (l : Fin 256) (s : Fin 256) :
    val_main_v13 (F := Ideal) x0 x1 (ix3 b l s) = attn (batchRows x0 b) (batchRows x1 b) l s := by
  rw [val_main_v13_apply, val_main_v12_apply, val_main_v11_apply,
    show idx_main_v11 (idx_main_v12 (ix3 b l s)) = ix2 b l from funext fun a => Fin.ext (by match a with | ⟨0, _⟩ => rfl | ⟨1, _⟩ => rfl),
    exSum_apply, exExp_apply]
  rfl

/-! ### The second softmax -/

/-- The row maximum: the host's fold of `max` from `-∞` over the row, and once more against `-∞`. -/
theorem setRowMax_apply (x0 : (⟨S80x256x1024, .f32⟩ : BufTy).Contents (Elt Ideal)) (x2 : (⟨S8x512x1024, .f32⟩ : BufTy).Contents (Elt Ideal)) (b : Fin 80) (l : Fin 256) :
    val_main_v17 (F := Ideal) x0 x2 (ix2 b l) = rowMax (scores (batchRows x0 b) (groupRows x2 b) l) := by
  have hR : S80x256x512.Reduces [2] S80x256 := by decide
  have h3 : val_main_v15 (F := Ideal) x0 x2 (ix2 b l) = rowMax (scores (batchRows x0 b) (groupRows x2 b) l) := by
    unfold val_main_v15
    refine (Host.reduce_eq_fold_single FloatOps.maximumf _ _ _ hR _ (ix2 b l)).trans ?_
    show Finset.fold max (Ideal.ofBits .f32 0xFF800000#32) (val_main_v14 (F := Ideal) x0 x2 ∘ hR.lift (ix2 b l)) (Finset.univ : Finset (Fin 512))
      = Finset.fold max (Ideal.ofBits .f32 0xFF800000#32) (scores (batchRows x0 b) (groupRows x2 b) l) Finset.univ
    congr 1
    funext k
    show val_main_v14 (F := Ideal) x0 x2 (hR.lift (ix2 b l) k) = _
    rw [show hR.lift (ix2 b l) k = ix3 b l k from funext fun a => Fin.ext (by match a with | ⟨0, _⟩ => rfl | ⟨1, _⟩ => rfl | ⟨2, _⟩ => rfl)]
    exact setScores_apply x0 x2 b l k
  rw [val_main_v17_apply, val_main_v16_apply, val_main_cst_3_apply, h3]
  exact max_rowMax _

/-- The shifted exponential. -/
theorem setExp_apply (x0 : (⟨S80x256x1024, .f32⟩ : BufTy).Contents (Elt Ideal)) (x2 : (⟨S8x512x1024, .f32⟩ : BufTy).Contents (Elt Ideal)) (b : Fin 80) (l : Fin 256) (s : Fin 512) :
    val_main_v21 (F := Ideal) x0 x2 (ix3 b l s) = shiftedExp (scores (batchRows x0 b) (groupRows x2 b) l) s := by
  rw [val_main_v21_apply, val_main_v20_apply, val_main_v19_apply, val_main_v18_apply,
    show idx_main_v18 (idx_main_v19 (ix3 b l s)) = ix2 b l from funext fun a => Fin.ext (by match a with | ⟨0, _⟩ => rfl | ⟨1, _⟩ => rfl),
    setRowMax_apply, setScores_apply]
  rfl

/-- The row's sum of shifted exponentials: the host's sum from zero. -/
theorem setSum_apply (x0 : (⟨S80x256x1024, .f32⟩ : BufTy).Contents (Elt Ideal)) (x2 : (⟨S8x512x1024, .f32⟩ : BufTy).Contents (Elt Ideal)) (b : Fin 80) (l : Fin 256) :
    val_main_v22 (F := Ideal) x0 x2 (ix2 b l) = ∑ k : Fin 512, shiftedExp (scores (batchRows x0 b) (groupRows x2 b) l) k := by
  rw [val_main_v22_apply]
  show Ideal.ofBits .f32 0x00000000#32 + _ = _
  rw [Ideal.ofBits_zero_f32, zero_add]
  refine Finset.sum_congr rfl fun k _ => ?_
  rw [show idx_main_v22 (ix2 b l) k = ix3 b l k from funext fun a => Fin.ext (by match a with | ⟨0, _⟩ => rfl | ⟨1, _⟩ => rfl | ⟨2, _⟩ => rfl)]
  exact setExp_apply x0 x2 b l k

/-- The weights. -/
theorem setAttn_apply (x0 : (⟨S80x256x1024, .f32⟩ : BufTy).Contents (Elt Ideal)) (x2 : (⟨S8x512x1024, .f32⟩ : BufTy).Contents (Elt Ideal)) (b : Fin 80) (l : Fin 256) (s : Fin 512) :
    val_main_v25 (F := Ideal) x0 x2 (ix3 b l s) = attn (batchRows x0 b) (groupRows x2 b) l s := by
  rw [val_main_v25_apply, val_main_v24_apply, val_main_v23_apply,
    show idx_main_v23 (idx_main_v24 (ix3 b l s)) = ix2 b l from funext fun a => Fin.ext (by match a with | ⟨0, _⟩ => rfl | ⟨1, _⟩ => rfl),
    setSum_apply, setExp_apply]
  rfl

/-! ### The contexts, the join, the result -/

theorem exCtx_apply (x0 x1 : (⟨S80x256x1024, .f32⟩ : BufTy).Contents (Elt Ideal)) (b : Fin 80) (l : Fin 256) (d : Fin 1024) :
    val_main_v26 (F := Ideal) x0 x1 (ix3 b l d) = ctx (batchRows x0 b) (batchRows x1 b) l d := by
  refine (val_main_v26_apply x0 x1 _).trans (Finset.sum_congr rfl fun k _ => ?_)
  rw [show lidx_main_v26 (ix3 b l d) k = ix3 b l k from funext fun a => Fin.ext (by match a with | ⟨0, _⟩ => rfl | ⟨1, _⟩ => rfl | ⟨2, _⟩ => rfl),
    show ridx_main_v26 (ix3 b l d) k = ix3 b k d from funext fun a => Fin.ext (by match a with | ⟨0, _⟩ => rfl | ⟨1, _⟩ => rfl | ⟨2, _⟩ => rfl), exAttn_apply]
  rfl

theorem setCtx_apply (x0 : (⟨S80x256x1024, .f32⟩ : BufTy).Contents (Elt Ideal)) (x2 : (⟨S8x512x1024, .f32⟩ : BufTy).Contents (Elt Ideal)) (b : Fin 80) (l : Fin 256) (d : Fin 1024) :
    val_main_v27 (F := Ideal) x0 x2 (ix3 b l d) = ctx (batchRows x0 b) (groupRows x2 b) l d := by
  refine (val_main_v27_apply x0 x2 _).trans (Finset.sum_congr rfl fun k _ => ?_)
  rw [show lidx_main_v27 (ix3 b l d) k = ix3 b l k from funext fun a => Fin.ext (by match a with | ⟨0, _⟩ => rfl | ⟨1, _⟩ => rfl | ⟨2, _⟩ => rfl),
    show ridx_main_v27 (ix3 b l d) k = ix3 b k d from funext fun a => Fin.ext (by match a with | ⟨0, _⟩ => rfl | ⟨1, _⟩ => rfl | ⟨2, _⟩ => rfl), setAttn_apply, repeated_apply]

/-- Column `k` of the joined array comes from the piece whose span of 1024 columns holds `k`. -/
theorem joined_apply (x0 x1 : (⟨S80x256x1024, .f32⟩ : BufTy).Contents (Elt Ideal)) (x2 : (⟨S8x512x1024, .f32⟩ : BufTy).Contents (Elt Ideal)) (b : Fin 80) (l : Fin 256) (k : Fin 3072) :
    val_main_v28 (F := Ideal) x0 x1 x2 (ix3 b l k) = joined (batchRows x0 b) (batchRows x1 b) (groupRows x2 b) l k := by
  have hk : k.val < 3072 := k.isLt
  unfold joined cat3 val_main_v28
  by_cases h1 : k.val < 1024
  · rw [dif_pos h1]
    refine (concatenate_apply_piece (2 : Fin S80x256x3072.rank) _ _ (ix3 b l k) 0 ?_ S80x256x1024 x0 rfl rfl 0 rfl
      (ix3 b l (⟨k.val, h1⟩ : Fin 1024)) ?_ ?_).trans rfl
    · show (_ : ℕ) < 3; decide
    · intro a ha
      match a with
      | ⟨0, _⟩ => rfl
      | ⟨1, _⟩ => rfl
      | ⟨2, _⟩ => exact absurd rfl ha
    · show 0 + k.val = k.val
      omega
  · rw [dif_neg h1]
    by_cases h2 : k.val < 2048
    · rw [dif_pos h2]
      refine (concatenate_apply_piece (2 : Fin S80x256x3072.rank) _ _ (ix3 b l k) 1 ?_ S80x256x1024 (val_main_v26 (F := Ideal) x0 x1) rfl rfl 1024 rfl
        (ix3 b l (⟨k.val - 1024, by omega⟩ : Fin 1024)) ?_ ?_).trans (exCtx_apply x0 x1 b l _)
      · show (_ : ℕ) < 3; decide
      · intro a ha
        match a with
        | ⟨0, _⟩ => rfl
        | ⟨1, _⟩ => rfl
        | ⟨2, _⟩ => exact absurd rfl ha
      · show 1024 + (k.val - 1024) = k.val
        omega
    · rw [dif_neg h2]
      refine (concatenate_apply_piece (2 : Fin S80x256x3072.rank) _ _ (ix3 b l k) 2 ?_ S80x256x1024 (val_main_v27 (F := Ideal) x0 x2) rfl rfl 2048 rfl
        (ix3 b l (⟨k.val - 2048, by omega⟩ : Fin 1024)) ?_ ?_).trans (setCtx_apply x0 x2 b l _)
      · show (_ : ℕ) < 3; decide
      · intro a ha
        match a with
        | ⟨0, _⟩ => rfl
        | ⟨1, _⟩ => rfl
        | ⟨2, _⟩ => exact absurd rfl ha
      · show 2048 + (k.val - 2048) = k.val
        omega

/-- The result at `(b, l, h)`. -/
theorem result_apply (x0 x1 : (⟨S80x256x1024, .f32⟩ : BufTy).Contents (Elt Ideal)) (x2 : (⟨S8x512x1024, .f32⟩ : BufTy).Contents (Elt Ideal)) (x4 : (⟨S1024x3072, .f32⟩ : BufTy).Contents (Elt Ideal)) (x5 : (⟨S1024, .f32⟩ : BufTy).Contents (Elt Ideal)) (b : Fin 80) (l : Fin 256) (h : Fin 1024) :
    val_main_v33 (F := Ideal) x0 x1 x2 x4 x5 (ix3 b l h)
      = result (batchRows x0 b) (batchRows x1 b) (groupRows x2 b) (weightsOf x4) (biasOf x5) l h := by
  have hproj : val_main_v29 (F := Ideal) x0 x1 x2 x4 (ix3 b l h)
      = projected (batchRows x0 b) (batchRows x1 b) (groupRows x2 b) (weightsOf x4) l h := by
    refine (val_main_v29_apply x0 x1 x2 x4 _).trans (Finset.sum_congr rfl fun k _ => ?_)
    rw [show lidx_main_v29 (ix3 b l h) k = ix3 b l k from funext fun a => Fin.ext (by match a with | ⟨0, _⟩ => rfl | ⟨1, _⟩ => rfl | ⟨2, _⟩ => rfl),
      show ridx_main_v29 (ix3 b l h) k = ix2 h k from funext fun a => Fin.ext (by match a with | ⟨0, _⟩ => rfl | ⟨1, _⟩ => rfl), joined_apply]
    rfl
  rw [val_main_v33_apply, val_main_v32_apply, val_main_v31_apply, val_main_v30_apply, hproj,
    show idx_main_v30 (idx_main_v31 (ix3 b l h)) = ix1 h from funext fun a => Fin.ext (by match a with | ⟨0, _⟩ => rfl)]
  rfl

/-! ### The three results as arrays -/

theorem out_eq (x0 x1 : (⟨S80x256x1024, .f32⟩ : BufTy).Contents (Elt Ideal)) (x2 : (⟨S8x512x1024, .f32⟩ : BufTy).Contents (Elt Ideal)) (x4 : (⟨S1024x3072, .f32⟩ : BufTy).Contents (Elt Ideal)) (x5 : (⟨S1024, .f32⟩ : BufTy).Contents (Elt Ideal)) :
    val_main_v33 (F := Ideal) x0 x1 x2 x4 x5 = outArr x0 x1 x2 x4 x5 := by
  funext i
  obtain ⟨b, l, h, rfl⟩ : ∃ (b : Fin 80) (l : Fin 256) (h : Fin 1024), i = ix3 b l h := ⟨i 0, i 1, i 2, eq_ix3 i⟩
  exact result_apply x0 x1 x2 x4 x5 b l h

theorem exAttn_eq (x0 x1 : (⟨S80x256x1024, .f32⟩ : BufTy).Contents (Elt Ideal)) : val_main_v13 (F := Ideal) x0 x1 = exAttnArr x0 x1 := by
  funext i
  obtain ⟨b, l, s, rfl⟩ : ∃ (b : Fin 80) (l : Fin 256) (s : Fin 256), i = ix3 b l s := ⟨i 0, i 1, i 2, eq_ix3 i⟩
  exact exAttn_apply x0 x1 b l s

theorem setAttn_eq (x0 : (⟨S80x256x1024, .f32⟩ : BufTy).Contents (Elt Ideal)) (x2 : (⟨S8x512x1024, .f32⟩ : BufTy).Contents (Elt Ideal)) : val_main_v25 (F := Ideal) x0 x2 = setAttnArr x0 x2 := by
  funext i
  obtain ⟨b, l, s, rfl⟩ : ∃ (b : Fin 80) (l : Fin 256) (s : Fin 512), i = ix3 b l s := ⟨i 0, i 1, i 2, eq_ix3 i⟩
  exact setAttn_apply x0 x2 b l s

end Cert.ReferenceIdeal.Bridge

end
-- ==== Proof.LibColumnLayout.lean ====
/-
  The layout operations a sum or a minimum taken with its reduced axis KEPT needs, read at an index given by its
  coordinates: a vector cast to a one-column matrix, a one-column matrix broadcast across columns, and a one-row matrix with
  a leading unit axis. (The leading-unit-axis casts and the one-row broadcast are in the library's layout file; these are
  the column forms beside them.) Each statement names both indices by their coordinates over literal extents.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.KernelRow.lean ====
/-
  The body of the kernel at one grid point, read entry by entry at the extended reals.

  The body loads one batch row of the queries `x` ([1, 256, 1024]), the matching row of the first keys ([1, 256, 1024]),
  one group's row of the second keys ([1, 512, 1024]), the weights ([1024, 3072]) and the bias ([1, 1024]). Changes of
  float format are the identity here, a product into a zero accumulator is the plain sum over the contracted axis, a lane
  maximum is the fold of `max` over the row and a lane sum is the sum over the row. So the two arrays of weights it stores
  are the attention of each query row over each set of keys, and the array it projects is the three-part row against the
  weights: the functions of `Attention.lean`, with the blocks' rows as `Q`, `K0`, `K1`.

  This file has the layout-free part: the five products, the two softmaxes, the join. The blocks' leading unit axis and the
  final `tanh` and bias are read in the next file.
-/
import proofs.«172039_j73813307949260_1_alg».proof.Proof.Gen.KernelIdeal.Skeleton
import proofs.«172039_j73813307949260_1_alg».proof.Proof.Attention
import proofs.«172039_j73813307949260_1_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Idealize.ShloMosaic Idealize.ShloMosaic.ValueIdx Idealize.ShloMosaic.ColumnLayout Cert.Attention

/-! ### The five products, each as a sum over its contracted axis

For each product: where its operands are read at output entry `i` and contraction index `c`, one coordinate at a time;
then the product at `(p, q)` as a sum over a `Fin`. -/

theorem scoresProduct256_l0 (i : S256x256.Idx) (c : dot_S256x1024_S256x1024_S256x256_1_1_0_0_n_n.contr.Idx) : (dot_S256x1024_S256x1024_S256x256_1_1_0_0_n_n.lhsIdx i c 0).val = (i 0).val := by
  unfold DotDims.lhsIdx
  rw [dif_neg (show ¬(0 : Fin S256x1024.rank) ∈ dot_S256x1024_S256x1024_S256x256_1_1_0_0_n_n.lhsBatch by decide), dif_pos (show (0 : Fin S256x1024.rank) ∈ dot_S256x1024_S256x1024_S256x256_1_1_0_0_n_n.lhsNonContracting by decide)]
  rfl
theorem scoresProduct256_l1 (i : S256x256.Idx) (c : dot_S256x1024_S256x1024_S256x256_1_1_0_0_n_n.contr.Idx) : (dot_S256x1024_S256x1024_S256x256_1_1_0_0_n_n.lhsIdx i c 1).val = (c ⟨0, by decide⟩).val :=
  dot_S256x1024_S256x1024_S256x256_1_1_0_0_n_n.lhsIdx_val_of_single rfl i c
theorem scoresProduct256_r0 (i : S256x256.Idx) (c : dot_S256x1024_S256x1024_S256x256_1_1_0_0_n_n.contr.Idx) : (dot_S256x1024_S256x1024_S256x256_1_1_0_0_n_n.rhsIdx i c 0).val = (i 1).val := by
  unfold DotDims.rhsIdx
  rw [dif_neg (show ¬(0 : Fin S256x1024.rank) ∈ dot_S256x1024_S256x1024_S256x256_1_1_0_0_n_n.rhsBatch by decide), dif_pos (show (0 : Fin S256x1024.rank) ∈ dot_S256x1024_S256x1024_S256x256_1_1_0_0_n_n.rhsNonContracting by decide)]
  rfl
theorem scoresProduct256_r1 (i : S256x256.Idx) (c : dot_S256x1024_S256x1024_S256x256_1_1_0_0_n_n.contr.Idx) : (dot_S256x1024_S256x1024_S256x256_1_1_0_0_n_n.rhsIdx i c 1).val = (c ⟨0, by decide⟩).val :=
  dot_S256x1024_S256x1024_S256x256_1_1_0_0_n_n.rhsIdx_val_of_single rfl i c

/-- Queries against the first keys, both contracted along the depth: entry `(p, q)` is `∑ k, A (p, k) * B (q, k)`. -/
theorem scoresProduct256 (A : FVec Ideal S256x1024 .bf16) (B : FVec Ideal S256x1024 .bf16) (p : Fin 256) (q : Fin 256) :
    matmul dot_S256x1024_S256x1024_S256x256_1_1_0_0_n_n none A B (constant (F := Ideal) S256x256 .f32 0x00000000#32) (ix2 p q)
      = ∑ k : Fin 1024, A (ix2 p k) * B (ix2 q k) := by
  refine (Ideal.matmul_constant_zero_apply _ none _ _ _).trans ?_
  rw [← Equiv.sum_comp (contrEquiv1 dot_S256x1024_S256x1024_S256x256_1_1_0_0_n_n 1024 rfl rfl).symm]
  refine Finset.sum_congr rfl fun k _ => ?_
  have hk := contrEquiv1_symm_val dot_S256x1024_S256x1024_S256x256_1_1_0_0_n_n 1024 rfl rfl k
  have el : dot_S256x1024_S256x1024_S256x256_1_1_0_0_n_n.lhsIdx (ix2 p q) ((contrEquiv1 dot_S256x1024_S256x1024_S256x256_1_1_0_0_n_n 1024 rfl rfl).symm k) = ix2 p k := funext fun a => Fin.ext (by
    match a with
    | ⟨0, _⟩ => exact scoresProduct256_l0 _ _
    | ⟨1, _⟩ => exact (scoresProduct256_l1 _ _).trans hk)
  have er : dot_S256x1024_S256x1024_S256x256_1_1_0_0_n_n.rhsIdx (ix2 p q) ((contrEquiv1 dot_S256x1024_S256x1024_S256x256_1_1_0_0_n_n 1024 rfl rfl).symm k) = ix2 q k := funext fun a => Fin.ext (by
    match a with
    | ⟨0, _⟩ => exact scoresProduct256_r0 _ _
    | ⟨1, _⟩ => exact (scoresProduct256_r1 _ _).trans hk)
  rw [el, er]

theorem scoresProduct512_l0 (i : S256x512.Idx) (c : dot_S256x1024_S512x1024_S256x512_1_1_0_0_n_n.contr.Idx) : (dot_S256x1024_S512x1024_S256x512_1_1_0_0_n_n.lhsIdx i c 0).val = (i 0).val := by
  unfold DotDims.lhsIdx
  rw [dif_neg (show ¬(0 : Fin S256x1024.rank) ∈ dot_S256x1024_S512x1024_S256x512_1_1_0_0_n_n.lhsBatch by decide), dif_pos (show (0 : Fin S256x1024.rank) ∈ dot_S256x1024_S512x1024_S256x512_1_1_0_0_n_n.lhsNonContracting by decide)]
  rfl
theorem scoresProduct512_l1 (i : S256x512.Idx) (c : dot_S256x1024_S512x1024_S256x512_1_1_0_0_n_n.contr.Idx) : (dot_S256x1024_S512x1024_S256x512_1_1_0_0_n_n.lhsIdx i c 1).val = (c ⟨0, by decide⟩).val :=
  dot_S256x1024_S512x1024_S256x512_1_1_0_0_n_n.lhsIdx_val_of_single rfl i c
theorem scoresProduct512_r0 (i : S256x512.Idx) (c : dot_S256x1024_S512x1024_S256x512_1_1_0_0_n_n.contr.Idx) : (dot_S256x1024_S512x1024_S256x512_1_1_0_0_n_n.rhsIdx i c 0).val = (i 1).val := by
  unfold DotDims.rhsIdx
  rw [dif_neg (show ¬(0 : Fin S512x1024.rank) ∈ dot_S256x1024_S512x1024_S256x512_1_1_0_0_n_n.rhsBatch by decide), dif_pos (show (0 : Fin S512x1024.rank) ∈ dot_S256x1024_S512x1024_S256x512_1_1_0_0_n_n.rhsNonContracting by decide)]
  rfl
theorem scoresProduct512_r1 (i : S256x512.Idx) (c : dot_S256x1024_S512x1024_S256x512_1_1_0_0_n_n.contr.Idx) : (dot_S256x1024_S512x1024_S256x512_1_1_0_0_n_n.rhsIdx i c 1).val = (c ⟨0, by decide⟩).val :=
  dot_S256x1024_S512x1024_S256x512_1_1_0_0_n_n.rhsIdx_val_of_single rfl i c

/-- Queries against the second keys, both contracted along the depth: entry `(p, q)` is `∑ k, A (p, k) * B (q, k)`. -/
theorem scoresProduct512 (A : FVec Ideal S256x1024 .bf16) (B : FVec Ideal S512x1024 .bf16) (p : Fin 256) (q : Fin 512) :
    matmul dot_S256x1024_S512x1024_S256x512_1_1_0_0_n_n none A B (constant (F := Ideal) S256x512 .f32 0x00000000#32) (ix2 p q)
      = ∑ k : Fin 1024, A (ix2 p k) * B (ix2 q k) := by
  refine (Ideal.matmul_constant_zero_apply _ none _ _ _).trans ?_
  rw [← Equiv.sum_comp (contrEquiv1 dot_S256x1024_S512x1024_S256x512_1_1_0_0_n_n 1024 rfl rfl).symm]
  refine Finset.sum_congr rfl fun k _ => ?_
  have hk := contrEquiv1_symm_val dot_S256x1024_S512x1024_S256x512_1_1_0_0_n_n 1024 rfl rfl k
  have el : dot_S256x1024_S512x1024_S256x512_1_1_0_0_n_n.lhsIdx (ix2 p q) ((contrEquiv1 dot_S256x1024_S512x1024_S256x512_1_1_0_0_n_n 1024 rfl rfl).symm k) = ix2 p k := funext fun a => Fin.ext (by
    match a with
    | ⟨0, _⟩ => exact scoresProduct512_l0 _ _
    | ⟨1, _⟩ => exact (scoresProduct512_l1 _ _).trans hk)
  have er : dot_S256x1024_S512x1024_S256x512_1_1_0_0_n_n.rhsIdx (ix2 p q) ((contrEquiv1 dot_S256x1024_S512x1024_S256x512_1_1_0_0_n_n 1024 rfl rfl).symm k) = ix2 q k := funext fun a => Fin.ext (by
    match a with
    | ⟨0, _⟩ => exact scoresProduct512_r0 _ _
    | ⟨1, _⟩ => exact (scoresProduct512_r1 _ _).trans hk)
  rw [el, er]

theorem contextProduct256_l0 (i : S256x1024.Idx) (c : dot_S256x256_S256x1024_S256x1024_1_0_0_1_n_n.contr.Idx) : (dot_S256x256_S256x1024_S256x1024_1_0_0_1_n_n.lhsIdx i c 0).val = (i 0).val := by
  unfold DotDims.lhsIdx
  rw [dif_neg (show ¬(0 : Fin S256x256.rank) ∈ dot_S256x256_S256x1024_S256x1024_1_0_0_1_n_n.lhsBatch by decide), dif_pos (show (0 : Fin S256x256.rank) ∈ dot_S256x256_S256x1024_S256x1024_1_0_0_1_n_n.lhsNonContracting by decide)]
  rfl
theorem contextProduct256_l1 (i : S256x1024.Idx) (c : dot_S256x256_S256x1024_S256x1024_1_0_0_1_n_n.contr.Idx) : (dot_S256x256_S256x1024_S256x1024_1_0_0_1_n_n.lhsIdx i c 1).val = (c ⟨0, by decide⟩).val :=
  dot_S256x256_S256x1024_S256x1024_1_0_0_1_n_n.lhsIdx_val_of_single rfl i c
theorem contextProduct256_r1 (i : S256x1024.Idx) (c : dot_S256x256_S256x1024_S256x1024_1_0_0_1_n_n.contr.Idx) : (dot_S256x256_S256x1024_S256x1024_1_0_0_1_n_n.rhsIdx i c 1).val = (i 1).val := by
  unfold DotDims.rhsIdx
  rw [dif_neg (show ¬(1 : Fin S256x1024.rank) ∈ dot_S256x256_S256x1024_S256x1024_1_0_0_1_n_n.rhsBatch by decide), dif_pos (show (1 : Fin S256x1024.rank) ∈ dot_S256x256_S256x1024_S256x1024_1_0_0_1_n_n.rhsNonContracting by decide)]
  rfl
theorem contextProduct256_r0 (i : S256x1024.Idx) (c : dot_S256x256_S256x1024_S256x1024_1_0_0_1_n_n.contr.Idx) : (dot_S256x256_S256x1024_S256x1024_1_0_0_1_n_n.rhsIdx i c 0).val = (c ⟨0, by decide⟩).val :=
  dot_S256x256_S256x1024_S256x1024_1_0_0_1_n_n.rhsIdx_val_of_single rfl i c

/-- Weights against the first keys, contracted along the keys' rows: entry `(p, q)` is `∑ k, A (p, k) * B (k, q)`. -/
theorem contextProduct256 (A : FVec Ideal S256x256 .bf16) (B : FVec Ideal S256x1024 .bf16) (p : Fin 256) (q : Fin 1024) :
    matmul dot_S256x256_S256x1024_S256x1024_1_0_0_1_n_n none A B (constant (F := Ideal) S256x1024 .f32 0x00000000#32) (ix2 p q)
      = ∑ k : Fin 256, A (ix2 p k) * B (ix2 k q) := by
  refine (Ideal.matmul_constant_zero_apply _ none _ _ _).trans ?_
  rw [← Equiv.sum_comp (contrEquiv1 dot_S256x256_S256x1024_S256x1024_1_0_0_1_n_n 256 rfl rfl).symm]
  refine Finset.sum_congr rfl fun k _ => ?_
  have hk := contrEquiv1_symm_val dot_S256x256_S256x1024_S256x1024_1_0_0_1_n_n 256 rfl rfl k
  have el : dot_S256x256_S256x1024_S256x1024_1_0_0_1_n_n.lhsIdx (ix2 p q) ((contrEquiv1 dot_S256x256_S256x1024_S256x1024_1_0_0_1_n_n 256 rfl rfl).symm k) = ix2 p k := funext fun a => Fin.ext (by
    match a with
    | ⟨0, _⟩ => exact contextProduct256_l0 _ _
    | ⟨1, _⟩ => exact (contextProduct256_l1 _ _).trans hk)
  have er : dot_S256x256_S256x1024_S256x1024_1_0_0_1_n_n.rhsIdx (ix2 p q) ((contrEquiv1 dot_S256x256_S256x1024_S256x1024_1_0_0_1_n_n 256 rfl rfl).symm k) = ix2 k q := funext fun a => Fin.ext (by
    match a with
    | ⟨1, _⟩ => exact contextProduct256_r1 _ _
    | ⟨0, _⟩ => exact (contextProduct256_r0 _ _).trans hk)
  rw [el, er]

theorem contextProduct512_l0 (i : S256x1024.Idx) (c : dot_S256x512_S512x1024_S256x1024_1_0_0_1_n_n.contr.Idx) : (dot_S256x512_S512x1024_S256x1024_1_0_0_1_n_n.lhsIdx i c 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl
theorem contextProduct512_l1 (i : S256x1024.Idx) (c : dot_S256x512_S512x1024_S256x1024_1_0_0_1_n_n.contr.Idx) : (dot_S256x512_S512x1024_S256x1024_1_0_0_1_n_n.lhsIdx i c 1).val = (c ⟨0, by decide⟩).val :=
  dot_S256x512_S512x1024_S256x1024_1_0_0_1_n_n.lhsIdx_val_of_single rfl i c
theorem contextProduct512_r1 (i : S256x1024.Idx) (c : dot_S256x512_S512x1024_S256x1024_1_0_0_1_n_n.contr.Idx) : (dot_S256x512_S512x1024_S256x1024_1_0_0_1_n_n.rhsIdx i c 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl
theorem contextProduct512_r0 (i : S256x1024.Idx) (c : dot_S256x512_S512x1024_S256x1024_1_0_0_1_n_n.contr.Idx) : (dot_S256x512_S512x1024_S256x1024_1_0_0_1_n_n.rhsIdx i c 0).val = (c ⟨0, by decide⟩).val :=
  dot_S256x512_S512x1024_S256x1024_1_0_0_1_n_n.rhsIdx_val_of_single rfl i c

/-- Weights against the second keys, contracted along the keys' rows: entry `(p, q)` is `∑ k, A (p, k) * B (k, q)`. -/
theorem contextProduct512 (A : FVec Ideal S256x512 .bf16) (B : FVec Ideal S512x1024 .bf16) (p : Fin 256) (q : Fin 1024) :
    matmul dot_S256x512_S512x1024_S256x1024_1_0_0_1_n_n none A B (constant (F := Ideal) S256x1024 .f32 0x00000000#32) (ix2 p q)
      = ∑ k : Fin 512, A (ix2 p k) * B (ix2 k q) := by
  refine (Ideal.matmul_constant_zero_apply _ none _ _ _).trans ?_
  rw [← Equiv.sum_comp (contrEquiv1 dot_S256x512_S512x1024_S256x1024_1_0_0_1_n_n 512 rfl rfl).symm]
  refine Finset.sum_congr rfl fun k _ => ?_
  have hk := contrEquiv1_symm_val dot_S256x512_S512x1024_S256x1024_1_0_0_1_n_n 512 rfl rfl k
  have el : dot_S256x512_S512x1024_S256x1024_1_0_0_1_n_n.lhsIdx (ix2 p q) ((contrEquiv1 dot_S256x512_S512x1024_S256x1024_1_0_0_1_n_n 512 rfl rfl).symm k) = ix2 p k := funext fun a => Fin.ext (by
    match a with
    | ⟨0, _⟩ => exact contextProduct512_l0 _ _
    | ⟨1, _⟩ => exact (contextProduct512_l1 _ _).trans hk)
  have er : dot_S256x512_S512x1024_S256x1024_1_0_0_1_n_n.rhsIdx (ix2 p q) ((contrEquiv1 dot_S256x512_S512x1024_S256x1024_1_0_0_1_n_n 512 rfl rfl).symm k) = ix2 k q := funext fun a => Fin.ext (by
    match a with
    | ⟨1, _⟩ => exact contextProduct512_r1 _ _
    | ⟨0, _⟩ => exact (contextProduct512_r0 _ _).trans hk)
  rw [el, er]

theorem projectionProduct_l0 (i : S256x1024.Idx) (c : dot_S256x3072_S1024x3072_S256x1024_1_1_0_0_n_n.contr.Idx) : (dot_S256x3072_S1024x3072_S256x1024_1_1_0_0_n_n.lhsIdx i c 0).val = (i 0).val := by
  unfold DotDims.lhsIdx
  rw [dif_neg (show ¬(0 : Fin S256x3072.rank) ∈ dot_S256x3072_S1024x3072_S256x1024_1_1_0_0_n_n.lhsBatch by decide), dif_pos (show (0 : Fin S256x3072.rank) ∈ dot_S256x3072_S1024x3072_S256x1024_1_1_0_0_n_n.lhsNonContracting by decide)]
  rfl
theorem projectionProduct_l1 (i : S256x1024.Idx) (c : dot_S256x3072_S1024x3072_S256x1024_1_1_0_0_n_n.contr.Idx) : (dot_S256x3072_S1024x3072_S256x1024_1_1_0_0_n_n.lhsIdx i c 1).val = (c ⟨0, by decide⟩).val :=
  dot_S256x3072_S1024x3072_S256x1024_1_1_0_0_n_n.lhsIdx_val_of_single rfl i c
theorem projectionProduct_r0 (i : S256x1024.Idx) (c : dot_S256x3072_S1024x3072_S256x1024_1_1_0_0_n_n.contr.Idx) : (dot_S256x3072_S1024x3072_S256x1024_1_1_0_0_n_n.rhsIdx i c 0).val = (i 1).val := by
  unfold DotDims.rhsIdx
  rw [dif_neg (show ¬(0 : Fin S1024x3072.rank) ∈ dot_S256x3072_S1024x3072_S256x1024_1_1_0_0_n_n.rhsBatch by decide), dif_pos (show (0 : Fin S1024x3072.rank) ∈ dot_S256x3072_S1024x3072_S256x1024_1_1_0_0_n_n.rhsNonContracting by decide)]
  rfl
theorem projectionProduct_r1 (i : S256x1024.Idx) (c : dot_S256x3072_S1024x3072_S256x1024_1_1_0_0_n_n.contr.Idx) : (dot_S256x3072_S1024x3072_S256x1024_1_1_0_0_n_n.rhsIdx i c 1).val = (c ⟨0, by decide⟩).val :=
  dot_S256x3072_S1024x3072_S256x1024_1_1_0_0_n_n.rhsIdx_val_of_single rfl i c

/-- The three-part rows against the weights, both contracted along the 3072 entries: entry `(p, q)` is `∑ k, A (p, k) * B (q, k)`. -/
theorem projectionProduct (A : FVec Ideal S256x3072 .bf16) (B : FVec Ideal S1024x3072 .bf16) (p : Fin 256) (q : Fin 1024) :
    matmul dot_S256x3072_S1024x3072_S256x1024_1_1_0_0_n_n none A B (constant (F := Ideal) S256x1024 .f32 0x00000000#32) (ix2 p q)
      = ∑ k : Fin 3072, A (ix2 p k) * B (ix2 q k) := by
  refine (Ideal.matmul_constant_zero_apply _ none _ _ _).trans ?_
  rw [← Equiv.sum_comp (contrEquiv1 dot_S256x3072_S1024x3072_S256x1024_1_1_0_0_n_n 3072 rfl rfl).symm]
  refine Finset.sum_congr rfl fun k _ => ?_
  have hk := contrEquiv1_symm_val dot_S256x3072_S1024x3072_S256x1024_1_1_0_0_n_n 3072 rfl rfl k
  have el : dot_S256x3072_S1024x3072_S256x1024_1_1_0_0_n_n.lhsIdx (ix2 p q) ((contrEquiv1 dot_S256x3072_S1024x3072_S256x1024_1_1_0_0_n_n 3072 rfl rfl).symm k) = ix2 p k := funext fun a => Fin.ext (by
    match a with
    | ⟨0, _⟩ => exact projectionProduct_l0 _ _
    | ⟨1, _⟩ => exact (projectionProduct_l1 _ _).trans hk)
  have er : dot_S256x3072_S1024x3072_S256x1024_1_1_0_0_n_n.rhsIdx (ix2 p q) ((contrEquiv1 dot_S256x3072_S1024x3072_S256x1024_1_1_0_0_n_n 3072 rfl rfl).symm k) = ix2 q k := funext fun a => Fin.ext (by
    match a with
    | ⟨0, _⟩ => exact projectionProduct_r0 _ _
    | ⟨1, _⟩ => exact (projectionProduct_r1 _ _).trans hk)
  rw [el, er]

/-! ### A softmax along the rows of a [256, 256] array of scores, as the body spells it -/

/-- The row maxima, kept as a column and spread back over the 256 columns. -/
def rowMaxVec256 (U : FVec Ideal S256x256 .f32) : FVec Ideal S256x256 .f32 :=
  broadcastTo S256x256 (shapeCast S256x1 (multiReduction .maximumf [1] S256 U 0xFF800000#32 Gen.reduces_S256x256_S256 (.inl rfl) rfl) Gen.shapeCasts_S256_S256x1) Gen.broadcasts_S256x1_S256x256

/-- The exponentials of the scores less their row's maximum. -/
def expVec256 (U : FVec Ideal S256x256 .f32) : FVec Ideal S256x256 .f32 := exp (subf U (rowMaxVec256 U))

/-- The row sums, kept as a column and spread back over the 256 columns. -/
def rowSumVec256 (E : FVec Ideal S256x256 .f32) : FVec Ideal S256x256 .f32 :=
  broadcastTo S256x256 (shapeCast S256x1 (multiReduction .add [1] S256 E 0x00000000#32 Gen.reduces_S256x256_S256 (.inl rfl) rfl) Gen.shapeCasts_S256_S256x1) Gen.broadcasts_S256x1_S256x256

/-- The weights: each exponential over its row's sum. -/
def softmaxVec256 (U : FVec Ideal S256x256 .f32) : FVec Ideal S256x256 .f32 := divf (expVec256 U) (rowSumVec256 (expVec256 U))

/-- A lane maximum over the 256 columns, read at row `l`: the fold of `max` over that row. -/
theorem laneMax256 (U : FVec Ideal S256x256 .f32) (h : S256x256.Reduces [1] S256) (hφ : FKind.Formats .f32)
    (hacc : (0xFF800000#32 : BitVec 32) = FKind.maximumf.neutral .f32 hφ) (l : Fin 256) :
    multiReduction .maximumf [1] S256 U 0xFF800000#32 h hφ hacc (ix1 l) = rowMax (fun s : Fin 256 => U (ix2 l s)) := by
  refine (Ideal.multiReduction_maximumf_single U _ h hφ hacc (ix1 l)).trans ?_
  show Finset.fold max (Ideal.ofBits .f32 0xFF800000#32) (U ∘ h.lift (ix1 l)) (Finset.univ : Finset (Fin 256))
    = Finset.fold max (Ideal.ofBits .f32 0xFF800000#32) (fun s : Fin 256 => U (ix2 l s)) Finset.univ
  congr 1
  funext k
  exact congrArg U (funext fun a => Fin.ext (by match a with | ⟨0, _⟩ => rfl | ⟨1, _⟩ => rfl))

/-- A lane sum over the 256 columns, read at row `l`: the sum over that row. -/
theorem laneSum256 (E : FVec Ideal S256x256 .f32) (h : S256x256.Reduces [1] S256) (hφ : FKind.Formats .f32)
    (hacc : (0x00000000#32 : BitVec 32) = FKind.add.neutral .f32 hφ) (l : Fin 256) :
    multiReduction .add [1] S256 E 0x00000000#32 h hφ hacc (ix1 l) = ∑ s : Fin 256, E (ix2 l s) := by
  refine (Ideal.multiReduction_add_single E _ h hφ hacc (ix1 l)).trans ?_
  exact Finset.sum_congr rfl fun k _ => congrArg E (funext fun a => Fin.ext (by match a with | ⟨0, _⟩ => rfl | ⟨1, _⟩ => rfl))

theorem rowMaxVec256_apply (U : FVec Ideal S256x256 .f32) (l : Fin 256) (s : Fin 256) :
    rowMaxVec256 U (ix2 l s) = rowMax (fun s' : Fin 256 => U (ix2 l s')) := by
  unfold rowMaxVec256
  exact (broadcastTo_a1_ab_apply _ _ l s).trans ((shapeCast_a_a1_apply _ _ l 0).trans (laneMax256 U _ _ _ l))

theorem expVec256_apply (U : FVec Ideal S256x256 .f32) (l : Fin 256) (s : Fin 256) :
    expVec256 U (ix2 l s) = shiftedExp (fun s' : Fin 256 => U (ix2 l s')) s := by
  show Ideal.exp (U (ix2 l s) - rowMaxVec256 U (ix2 l s)) = Ideal.exp (U (ix2 l s) - rowMax (fun s' : Fin 256 => U (ix2 l s')))
  rw [rowMaxVec256_apply]

theorem rowSumVec256_apply (E : FVec Ideal S256x256 .f32) (l : Fin 256) (s : Fin 256) :
    rowSumVec256 E (ix2 l s) = ∑ k : Fin 256, E (ix2 l k) := by
  unfold rowSumVec256
  exact (broadcastTo_a1_ab_apply _ _ l s).trans ((shapeCast_a_a1_apply _ _ l 0).trans (laneSum256 E _ _ _ l))

/-- The body's softmax at `(l, s)` is the softmax of row `l`. -/
theorem softmaxVec256_apply (U : FVec Ideal S256x256 .f32) (l : Fin 256) (s : Fin 256) :
    softmaxVec256 U (ix2 l s) = softmax (fun s' : Fin 256 => U (ix2 l s')) s := by
  show Ideal.div (expVec256 U (ix2 l s)) (rowSumVec256 (expVec256 U) (ix2 l s)) = softmax (fun s' : Fin 256 => U (ix2 l s')) s
  rw [rowSumVec256_apply, expVec256_apply]
  unfold softmax
  exact congrArg (Ideal.div _) (Finset.sum_congr rfl fun k _ => expVec256_apply U l k)

/-! ### A softmax along the rows of a [256, 512] array of scores, as the body spells it -/

/-- The row maxima, kept as a column and spread back over the 512 columns. -/
def rowMaxVec512 (U : FVec Ideal S256x512 .f32) : FVec Ideal S256x512 .f32 :=
  broadcastTo S256x512 (shapeCast S256x1 (multiReduction .maximumf [1] S256 U 0xFF800000#32 Gen.reduces_S256x512_S256 (.inl rfl) rfl) Gen.shapeCasts_S256_S256x1) Gen.broadcasts_S256x1_S256x512

/-- The exponentials of the scores less their row's maximum. -/
def expVec512 (U : FVec Ideal S256x512 .f32) : FVec Ideal S256x512 .f32 := exp (subf U (rowMaxVec512 U))

/-- The row sums, kept as a column and spread back over the 512 columns. -/
def rowSumVec512 (E : FVec Ideal S256x512 .f32) : FVec Ideal S256x512 .f32 :=
  broadcastTo S256x512 (shapeCast S256x1 (multiReduction .add [1] S256 E 0x00000000#32 Gen.reduces_S256x512_S256 (.inl rfl) rfl) Gen.shapeCasts_S256_S256x1) Gen.broadcasts_S256x1_S256x512

/-- The weights: each exponential over its row's sum. -/
def softmaxVec512 (U : FVec Ideal S256x512 .f32) : FVec Ideal S256x512 .f32 := divf (expVec512 U) (rowSumVec512 (expVec512 U))

/-- A lane maximum over the 512 columns, read at row `l`: the fold of `max` over that row. -/
theorem laneMax512 (U : FVec Ideal S256x512 .f32) (h : S256x512.Reduces [1] S256) (hφ : FKind.Formats .f32)
    (hacc : (0xFF800000#32 : BitVec 32) = FKind.maximumf.neutral .f32 hφ) (l : Fin 256) :
    multiReduction .maximumf [1] S256 U 0xFF800000#32 h hφ hacc (ix1 l) = rowMax (fun s : Fin 512 => U (ix2 l s)) := by
  refine (Ideal.multiReduction_maximumf_single U _ h hφ hacc (ix1 l)).trans ?_
  show Finset.fold max (Ideal.ofBits .f32 0xFF800000#32) (U ∘ h.lift (ix1 l)) (Finset.univ : Finset (Fin 512))
    = Finset.fold max (Ideal.ofBits .f32 0xFF800000#32) (fun s : Fin 512 => U (ix2 l s)) Finset.univ
  congr 1
  funext k
  exact congrArg U (funext fun a => Fin.ext (by match a with | ⟨0, _⟩ => rfl | ⟨1, _⟩ => rfl))

/-- A lane sum over the 512 columns, read at row `l`: the sum over that row. -/
theorem laneSum512 (E : FVec Ideal S256x512 .f32) (h : S256x512.Reduces [1] S256) (hφ : FKind.Formats .f32)
    (hacc : (0x00000000#32 : BitVec 32) = FKind.add.neutral .f32 hφ) (l : Fin 256) :
    multiReduction .add [1] S256 E 0x00000000#32 h hφ hacc (ix1 l) = ∑ s : Fin 512, E (ix2 l s) := by
  refine (Ideal.multiReduction_add_single E _ h hφ hacc (ix1 l)).trans ?_
  exact Finset.sum_congr rfl fun k _ => congrArg E (funext fun a => Fin.ext (by match a with | ⟨0, _⟩ => rfl | ⟨1, _⟩ => rfl))

theorem rowMaxVec512_apply (U : FVec Ideal S256x512 .f32) (l : Fin 256) (s : Fin 512) :
    rowMaxVec512 U (ix2 l s) = rowMax (fun s' : Fin 512 => U (ix2 l s')) := by
  unfold rowMaxVec512
  exact (broadcastTo_a1_ab_apply _ _ l s).trans ((shapeCast_a_a1_apply _ _ l 0).trans (laneMax512 U _ _ _ l))

theorem expVec512_apply (U : FVec Ideal S256x512 .f32) (l : Fin 256) (s : Fin 512) :
    expVec512 U (ix2 l s) = shiftedExp (fun s' : Fin 512 => U (ix2 l s')) s := by
  show Ideal.exp (U (ix2 l s) - rowMaxVec512 U (ix2 l s)) = Ideal.exp (U (ix2 l s) - rowMax (fun s' : Fin 512 => U (ix2 l s')))
  rw [rowMaxVec512_apply]

theorem rowSumVec512_apply (E : FVec Ideal S256x512 .f32) (l : Fin 256) (s : Fin 512) :
    rowSumVec512 E (ix2 l s) = ∑ k : Fin 512, E (ix2 l k) := by
  unfold rowSumVec512
  exact (broadcastTo_a1_ab_apply _ _ l s).trans ((shapeCast_a_a1_apply _ _ l 0).trans (laneSum512 E _ _ _ l))

/-- The body's softmax at `(l, s)` is the softmax of row `l`. -/
theorem softmaxVec512_apply (U : FVec Ideal S256x512 .f32) (l : Fin 256) (s : Fin 512) :
    softmaxVec512 U (ix2 l s) = softmax (fun s' : Fin 512 => U (ix2 l s')) s := by
  show Ideal.div (expVec512 U (ix2 l s)) (rowSumVec512 (expVec512 U) (ix2 l s)) = softmax (fun s' : Fin 512 => U (ix2 l s')) s
  rw [rowSumVec512_apply, expVec512_apply]
  unfold softmax
  exact congrArg (Ideal.div _) (Finset.sum_congr rfl fun k _ => expVec512_apply U l k)

end Cert.KernelIdeal.Row

end
-- ==== Proof.KernelBody.lean ====
/-
  The kernel body's computed values, entry by entry, as the attention functions of the loaded blocks' rows.

  A loaded block has a leading unit axis: entry `(0, l, d)` of the block is entry `(l, d)` of its rows. With `Q` the rows
  of the query block, `K0` the rows of the first keys' block and `K1` the rows of the second keys' block:
    · the first stored array of weights at `(l, s)` is `attn Q K0 l s`, the second `attn Q K1 l s`;
    · each context is a product of weights with keys contracted along the keys' rows: `ctx Q K0 l d`, `ctx Q K1 l d`;
    · the joined array at `(l, k)` is the query row for `k < 1024`, the first context for `1024 ≤ k < 2048`, the second
      after that: `joined Q K0 K1 l k`;
    · the projected array at `(l, h)` is `∑ k, joined Q K0 K1 l k * W h k`, the weights read as stored (a cast to the
      same shape is the identity).
-/
import proofs.«172039_j73813307949260_1_alg».proof.Proof.KernelRow

noncomputable section

namespace Cert.KernelIdeal.Body

open Cert.KernelIdeal Idealize.ShloMosaic Idealize.ShloMosaic.ValueIdx Cert.Attention Cert.KernelIdeal.Row
open Cert.KernelIdeal.Gen (k0_pay4 k0_pay5 k0_pay6 k0_pay7 k0_pay8 k0_pay9)

/-- The rows of a [1, 256, 1024] block. -/
def rows256 (v : Vec Ideal S1x256x1024 .f32) : Fin 256 → Fin 1024 → EReal := fun l d => v (ix3 (0 : Fin 1) l d)
/-- The rows of a [1, 512, 1024] block. -/
def rows512 (v : Vec Ideal S1x512x1024 .f32) : Fin 512 → Fin 1024 → EReal := fun s d => v (ix3 (0 : Fin 1) s d)
/-- The weights by output row and joined column. -/
def weightRows (w : Vec Ideal S1024x3072 .bf16) : Fin 1024 → Fin 3072 → EReal := fun h k => w (ix2 h k)

theorem pay4_apply (v0 : Vec Ideal S1x256x1024 .f32) (l : Fin 256) (d : Fin 1024) :
    k0_pay4 v0 (ix2 l d) = rows256 v0 l d := by
  unfold k0_pay4
  exact shapeCast_1ab_ab_apply v0 _ l d

theorem pay5_apply (v2 : Vec Ideal S1x256x1024 .f32) (l : Fin 256) (d : Fin 1024) :
    k0_pay5 v2 (ix2 l d) = rows256 v2 l d := by
  unfold k0_pay5
  exact shapeCast_1ab_ab_apply v2 _ l d

theorem pay6_apply (v4 : Vec Ideal S1x512x1024 .f32) (s : Fin 512) (d : Fin 1024) :
    k0_pay6 v4 (ix2 s d) = rows512 v4 s d := by
  unfold k0_pay6
  exact shapeCast_1ab_ab_apply v4 _ s d

/-! ### The two arrays of weights -/

theorem pay7_eq (v0 v2 : Vec Ideal S1x256x1024 .f32) :
    k0_pay7 v0 v2 = softmaxVec256 (matmul dot_S256x1024_S256x1024_S256x256_1_1_0_0_n_n none (k0_pay4 v0) (k0_pay5 v2) (constant (F := Ideal) S256x256 .f32 0x00000000#32)) := rfl

/-- The first stored weights: the attention of the query rows over the first keys' rows. -/
theorem pay7_apply (v0 v2 : Vec Ideal S1x256x1024 .f32) (l s : Fin 256) :
    k0_pay7 v0 v2 (ix2 l s) = attn (rows256 v0) (rows256 v2) l s := by
  rw [pay7_eq]
  refine (softmaxVec256_apply _ l s).trans (congrArg (fun f => softmax f s) (funext fun s' => ?_))
  refine (scoresProduct256 _ _ l s').trans (Finset.sum_congr rfl fun k _ => ?_)
  rw [pay4_apply, pay5_apply]

theorem pay8_eq (v0 : Vec Ideal S1x256x1024 .f32) (v4 : Vec Ideal S1x512x1024 .f32) :
    k0_pay8 v0 v4 = softmaxVec512 (matmul dot_S256x1024_S512x1024_S256x512_1_1_0_0_n_n none (k0_pay4 v0) (k0_pay6 v4) (constant (F := Ideal) S256x512 .f32 0x00000000#32)) := rfl

/-- The second stored weights: the attention of the query rows over the second keys' rows. -/
theorem pay8_apply (v0 : Vec Ideal S1x256x1024 .f32) (v4 : Vec Ideal S1x512x1024 .f32) (l : Fin 256) (s : Fin 512) :
    k0_pay8 v0 v4 (ix2 l s) = attn (rows256 v0) (rows512 v4) l s := by
  rw [pay8_eq]
  refine (softmaxVec512_apply _ l s).trans (congrArg (fun f => softmax f s) (funext fun s' => ?_))
  refine (scoresProduct512 _ _ l s').trans (Finset.sum_congr rfl fun k _ => ?_)
  rw [pay4_apply, pay6_apply]

/-! ### The contexts, the join, the projection -/

/-- The context over the first keys, as the body computes it. -/
def ctxVec256 (v0 v2 : Vec Ideal S1x256x1024 .f32) : FVec Ideal S256x1024 .bf16 :=
  truncf .bf16 (matmul dot_S256x256_S256x1024_S256x1024_1_0_0_1_n_n none (truncf .bf16 (k0_pay7 v0 v2) Gen.bitsLt_bf16_f32) (k0_pay5 v2) (constant (F := Ideal) S256x1024 .f32 0x00000000#32)) Gen.bitsLt_bf16_f32

/-- The context over the second keys, as the body computes it. -/
def ctxVec512 (v0 : Vec Ideal S1x256x1024 .f32) (v4 : Vec Ideal S1x512x1024 .f32) : FVec Ideal S256x1024 .bf16 :=
  truncf .bf16 (matmul dot_S256x512_S512x1024_S256x1024_1_0_0_1_n_n none (truncf .bf16 (k0_pay8 v0 v4) Gen.bitsLt_bf16_f32) (k0_pay6 v4) (constant (F := Ideal) S256x1024 .f32 0x00000000#32)) Gen.bitsLt_bf16_f32

theorem ctxVec256_apply (v0 v2 : Vec Ideal S1x256x1024 .f32) (l : Fin 256) (d : Fin 1024) :
    ctxVec256 v0 v2 (ix2 l d) = ctx (rows256 v0) (rows256 v2) l d := by
  show matmul dot_S256x256_S256x1024_S256x1024_1_0_0_1_n_n none (truncf .bf16 (k0_pay7 v0 v2) Gen.bitsLt_bf16_f32) (k0_pay5 v2) (constant (F := Ideal) S256x1024 .f32 0x00000000#32) (ix2 l d) = _
  refine (contextProduct256 _ _ l d).trans (Finset.sum_congr rfl fun k _ => ?_)
  show k0_pay7 v0 v2 (ix2 l k) * k0_pay5 v2 (ix2 k d) = attn (rows256 v0) (rows256 v2) l k * rows256 v2 k d
  rw [pay7_apply, pay5_apply]

theorem ctxVec512_apply (v0 : Vec Ideal S1x256x1024 .f32) (v4 : Vec Ideal S1x512x1024 .f32) (l : Fin 256) (d : Fin 1024) :
    ctxVec512 v0 v4 (ix2 l d) = ctx (rows256 v0) (rows512 v4) l d := by
  show matmul dot_S256x512_S512x1024_S256x1024_1_0_0_1_n_n none (truncf .bf16 (k0_pay8 v0 v4) Gen.bitsLt_bf16_f32) (k0_pay6 v4) (constant (F := Ideal) S256x1024 .f32 0x00000000#32) (ix2 l d) = _
  refine (contextProduct512 _ _ l d).trans (Finset.sum_congr rfl fun k _ => ?_)
  show k0_pay8 v0 v4 (ix2 l k) * k0_pay6 v4 (ix2 k d) = attn (rows256 v0) (rows512 v4) l k * rows512 v4 k d
  rw [pay8_apply, pay6_apply]

/-- The query rows and the two contexts laid side by side along the columns. -/
def joinedVec (v0 v2 : Vec Ideal S1x256x1024 .f32) (v4 : Vec Ideal S1x512x1024 .f32) : FVec Ideal S256x3072 .bf16 :=
  concatenate S256x3072 1 [⟨S256x1024, k0_pay4 v0⟩, ⟨S256x1024, ctxVec256 v0 v2⟩, ⟨S256x1024, ctxVec512 v0 v4⟩]
    Gen.concatenates_S256x1024_S256x1024_S256x1024_S256x3072_d1

/-- Column `k` of the joined array comes from the piece whose span of 1024 columns holds `k`. -/
theorem joinedVec_apply (v0 v2 : Vec Ideal S1x256x1024 .f32) (v4 : Vec Ideal S1x512x1024 .f32) (l : Fin 256) (k : Fin 3072) :
    joinedVec v0 v2 v4 (ix2 l k) = joined (rows256 v0) (rows256 v2) (rows512 v4) l k := by
  have hk : k.val < 3072 := k.isLt
  unfold joined cat3 joinedVec
  by_cases h1 : k.val < 1024
  · rw [dif_pos h1]
    refine (concatenate_apply_piece (1 : Fin S256x3072.rank) _ _ (ix2 l k) 0 ?_ S256x1024 (k0_pay4 v0) rfl rfl 0 rfl
      (ix2 l (⟨k.val, h1⟩ : Fin 1024)) ?_ ?_).trans (pay4_apply v0 l _)
    · show (_ : ℕ) < 3; decide
    · intro b hb
      match b with
      | ⟨0, _⟩ => rfl
      | ⟨1, _⟩ => exact absurd rfl hb
    · show 0 + k.val = k.val
      omega
  · rw [dif_neg h1]
    by_cases h2 : k.val < 2048
    · rw [dif_pos h2]
      refine (concatenate_apply_piece (1 : Fin S256x3072.rank) _ _ (ix2 l k) 1 ?_ S256x1024 (ctxVec256 v0 v2) rfl rfl 1024 rfl
        (ix2 l (⟨k.val - 1024, by omega⟩ : Fin 1024)) ?_ ?_).trans (ctxVec256_apply v0 v2 l _)
      · show (_ : ℕ) < 3; decide
      · intro b hb
        match b with
        | ⟨0, _⟩ => rfl
        | ⟨1, _⟩ => exact absurd rfl hb
      · show 1024 + (k.val - 1024) = k.val
        omega
    · rw [dif_neg h2]
      refine (concatenate_apply_piece (1 : Fin S256x3072.rank) _ _ (ix2 l k) 2 ?_ S256x1024 (ctxVec512 v0 v4) rfl rfl 2048 rfl
        (ix2 l (⟨k.val - 2048, by omega⟩ : Fin 1024)) ?_ ?_).trans (ctxVec512_apply v0 v4 l _)
      · show (_ : ℕ) < 3; decide
      · intro b hb
        match b with
        | ⟨0, _⟩ => rfl
        | ⟨1, _⟩ => exact absurd rfl hb
      · show 2048 + (k.val - 2048) = k.val
        omega

theorem pay9_eq (v0 v2 : Vec Ideal S1x256x1024 .f32) (v4 : Vec Ideal S1x512x1024 .f32) (v36 : Vec Ideal S1024x3072 .bf16) :
    k0_pay9 v0 v2 v4 v36 = matmul (φ₂ := .bf16) dot_S256x3072_S1024x3072_S256x1024_1_1_0_0_n_n none (joinedVec v0 v2 v4)
      (shapeCast S1024x3072 v36 Gen.shapeCasts_S1024x3072_S1024x3072) (constant (F := Ideal) S256x1024 .f32 0x00000000#32) := rfl

/-- The projected array: the joined rows against the weights' rows. -/
theorem pay9_apply (v0 v2 : Vec Ideal S1x256x1024 .f32) (v4 : Vec Ideal S1x512x1024 .f32) (v36 : Vec Ideal S1024x3072 .bf16)
    (l : Fin 256) (h : Fin 1024) :
    k0_pay9 v0 v2 v4 v36 (ix2 l h) = projected (rows256 v0) (rows256 v2) (rows512 v4) (weightRows v36) l h := by
  rw [pay9_eq, shapeCast_self]
  refine (projectionProduct _ _ l h).trans (Finset.sum_congr rfl fun k _ => ?_)
  rw [joinedVec_apply]
  rfl

end Cert.KernelIdeal.Body

end
-- ==== Proof.KernelValue.lean ====
/-
  From what each grid point writes back to the kernel's three whole result arrays.

  The grid has 80 points; point `t` is batch `t`. Its query block and its first keys' block are row `t` of their arrays,
  its second keys' block is row `t / 10` of the [8, 512, 1024] array (ten consecutive points share it), the weights' block
  is the whole array the host wrote before the call (the weights, their change of format the identity) and the bias block is
  the bias as one row. Each output window's block at point `t` is row `t` of its array, so the 80 blocks cover it: the array
  ends holding, at `(b, l, ·)`, what point `b` computed at `(l, ·)` — the functions of `ArrayAttention.lean`.
-/
import proofs.«172039_j73813307949260_1_alg».proof.Proof.Gen.KernelIdeal.Value
import proofs.«172039_j73813307949260_1_alg».proof.Proof.KernelBody
import proofs.«172039_j73813307949260_1_alg».proof.Proof.ArrayAttention
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.Attention Cert.KernelIdeal.Body
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ### Each point's stored blocks, entry by entry, over any loaded blocks -/

/-- The result block at `(·, l, h)`: `tanh` of the projected row plus the bias. -/
theorem out5_at (x0 x1 : Vec Ideal S1x256x1024 .f32) (x2 : Vec Ideal S1x512x1024 .f32) (x3 : Vec Ideal S1024x3072 .bf16)
    (x4 : Vec Ideal S1x1024 .f32) (y : S1x256x1024.Idx) :
    out0_5 x0 x1 x2 x3 x4 y
      = result (rows256 x0) (rows256 x1) (rows512 x2) (weightRows x3) (fun h' => x4 (ix2 (0 : Fin 1) h')) (y 1) (y 2) := by
  obtain ⟨u, l, h, rfl⟩ : ∃ (u : Fin 1) (l : Fin 256) (h : Fin 1024), y = ix3 u l h := ⟨y 0, y 1, y 2, eq_ix3 y⟩
  unfold out0_5
  rw [Value.canon5_eq]
  simp only [View.ld_unit_zero (S := S1x256x1024) hz3, View.ld_unit_zero (S := S1x512x1024) hz3,
    View.ld_unit_zero (S := S1024x3072) hz2, View.ld_unit_zero (S := S1x1024) hz2]
  show Ideal.tanh (k0_pay9 x0 x1 x2 x3 (Value.ix5_0 (ix3 u l h)) + x4 (Value.ix5_1 (ix3 u l h))) = _
  rw [show Value.ix5_0 (ix3 u l h) = ix2 l h from funext fun a => Fin.ext (by match a with | ⟨0, _⟩ => rfl | ⟨1, _⟩ => rfl),
    show Value.ix5_1 (ix3 u l h) = ix2 (0 : Fin 1) h from funext fun a => Fin.ext (by match a with | ⟨0, _⟩ => rfl | ⟨1, _⟩ => rfl),
    pay9_apply]
  rfl

/-- The first weights' block at `(·, l, s)`. -/
theorem out6_at (x0 x1 : Vec Ideal S1x256x1024 .f32) (x2 : Vec Ideal S1x512x1024 .f32) (x3 : Vec Ideal S1024x3072 .bf16)
    (x4 : Vec Ideal S1x1024 .f32) (y : S1x256x256.Idx) :
    out0_6 x0 x1 x2 x3 x4 y = attn (rows256 x0) (rows256 x1) (y 1) (y 2) := by
  obtain ⟨u, l, s, rfl⟩ : ∃ (u : Fin 1) (l : Fin 256) (s : Fin 256), y = ix3 u l s := ⟨y 0, y 1, y 2, eq_ix3 y⟩
  unfold out0_6
  rw [Value.canon6_eq]
  simp only [View.ld_unit_zero (S := S1x256x1024) hz3]
  show k0_pay7 x0 x1 (Value.ix6_0 (ix3 u l s)) = _
  rw [show Value.ix6_0 (ix3 u l s) = ix2 l s from funext fun a => Fin.ext (by match a with | ⟨0, _⟩ => rfl | ⟨1, _⟩ => rfl),
    pay7_apply]

/-- The second weights' block at `(·, l, s)`. -/
theorem out7_at (x0 x1 : Vec Ideal S1x256x1024 .f32) (x2 : Vec Ideal S1x512x1024 .f32) (x3 : Vec Ideal S1024x3072 .bf16)
    (x4 : Vec Ideal S1x1024 .f32) (y : S1x256x512.Idx) :
    out0_7 x0 x1 x2 x3 x4 y = attn (rows256 x0) (rows512 x2) (y 1) (y 2) := by
  obtain ⟨u, l, s, rfl⟩ : ∃ (u : Fin 1) (l : Fin 256) (s : Fin 512), y = ix3 u l s := ⟨y 0, y 1, y 2, eq_ix3 y⟩
  unfold out0_7
  rw [Value.canon7_eq]
  simp only [View.ld_unit_zero (S := S1x256x1024) hz3, View.ld_unit_zero (S := S1x512x1024) hz3]
  show k0_pay8 x0 x2 (Value.ix7_0 (ix3 u l s)) = _
  rw [show Value.ix7_0 (ix3 u l s) = ix2 l s from funext fun a => Fin.ext (by match a with | ⟨0, _⟩ => rfl | ⟨1, _⟩ => rfl),
    pay8_apply]

/-! ### Where each window's block sits, decided over the 80 points -/

/-- Point `t` is batch `t`. -/
def batchOf (t : Fin cfg0.N) : Fin 80 := ⟨t.val, lt_of_lt_of_eq t.isLt N_0⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 10 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)

/-! ### The input blocks as rows of the argument arrays -/

/-- The query block of point `t` is row `t` of the queries. -/
theorem blk0_apply (c : Dev nD) (t : Fin cfg0.N) (l : Fin 256) (d : Fin 1024) :
    (iblk m c 0 t : Vec Ideal S1x256x1024 .f32) (ix3 (0 : Fin 1) l d) = ((m ((c : Thread nD τ).loc main_arg0)) : S80x256x1024.Idx → EReal) (ix3 (batchOf t) l d) := by
  obtain ⟨e0, e1, e2⟩ := idx0 t
  unfold iblk
  rw [View.read_apply]
  show V m c main_arg0 _ = _
  rw [V_main_arg0 m c]
  refine congrArg (m ((c : Thread nD τ).loc main_arg0)) (funext fun a => Fin.ext ?_)
  match a with
  | ⟨0, _⟩ => show win0_0.index t (0 : Fin 3) * 1 + 1 * (0 : ℕ) = t.val; omega
  | ⟨1, _⟩ => show win0_0.index t (1 : Fin 3) * 256 + 1 * l.val = l.val; omega
  | ⟨2, _⟩ => show win0_0.index t (2 : Fin 3) * 1024 + 1 * d.val = d.val; omega

/-- The first keys' block of point `t` is row `t` of the first keys. -/
theorem blk1_apply (c : Dev nD) (t : Fin cfg0.N) (l : Fin 256) (d : Fin 1024) :
    (iblk m c 1 t : Vec Ideal S1x256x1024 .f32) (ix3 (0 : Fin 1) l d) = ((m ((c : Thread nD τ).loc main_arg1)) : S80x256x1024.Idx → EReal) (ix3 (batchOf t) l d) := by
  obtain ⟨e0, e1, e2⟩ := idx1 t
  unfold iblk
  rw [View.read_apply]
  show V m c main_arg1 _ = _
  rw [V_main_arg1 m c]
  refine congrArg (m ((c : Thread nD τ).loc main_arg1)) (funext fun a => Fin.ext ?_)
  match a with
  | ⟨0, _⟩ => show win0_1.index t (0 : Fin 3) * 1 + 1 * (0 : ℕ) = t.val; omega
  | ⟨1, _⟩ => show win0_1.index t (1 : Fin 3) * 256 + 1 * l.val = l.val; omega
  | ⟨2, _⟩ => show win0_1.index t (2 : Fin 3) * 1024 + 1 * d.val = d.val; omega

/-- The second keys' block of point `t` is row `t / 10` of the second keys. -/
theorem blk2_apply (c : Dev nD) (t : Fin cfg0.N) (l : Fin 512) (d : Fin 1024) :
    (iblk m c 2 t : Vec Ideal S1x512x1024 .f32) (ix3 (0 : Fin 1) l d) = ((m ((c : Thread nD τ).loc main_arg2)) : S8x512x1024.Idx → EReal) (ix3 (groupOf (batchOf t)) l d) := by
  obtain ⟨e0, e1, e2⟩ := idx2 t
  unfold iblk
  rw [View.read_apply]
  show V m c main_arg2 _ = _
  rw [V_main_arg2 m c]
  refine congrArg (m ((c : Thread nD τ).loc main_arg2)) (funext fun a => Fin.ext ?_)
  match a with
  | ⟨0, _⟩ => show win0_2.index t (0 : Fin 3) * 1 + 1 * (0 : ℕ) = t.val / 10; omega
  | ⟨1, _⟩ => show win0_2.index t (1 : Fin 3) * 512 + 1 * l.val = l.val; omega
  | ⟨2, _⟩ => show win0_2.index t (2 : Fin 3) * 1024 + 1 * d.val = d.val; omega

/-- The array the host hands the call as weights is the weights: a change of float format is the identity. -/
theorem V_weights (c : Dev nD) :
    (V m c main_v0 : S1024x3072.Idx → EReal) = ((m ((c : Thread nD τ).loc main_arg4)) : S1024x3072.Idx → EReal) := by
  dsimp only [Gen.V, Gen.hostOps0]; after_results; rfl

/-- The array the host hands the call as bias is the bias as one row. -/
theorem V_bias (c : Dev nD) :
    (V m c main_v1 : S1x1024.Idx → EReal) = shapeCast S1x1024 ((m ((c : Thread nD τ).loc main_arg5)) : S1024.Idx → EReal) Gen.shapeCasts_S1024_S1x1024 := by
  dsimp only [Gen.V, Gen.hostOps0]; after_results; rfl

/-- The weights' block is the whole array. -/
theorem blk3_apply (c : Dev nD) (t : Fin cfg0.N) (h : Fin 1024) (k : Fin 3072) :
    (iblk m c 3 t : Vec Ideal S1024x3072 .bf16) (ix2 h k) = ((m ((c : Thread nD τ).loc main_arg4)) : S1024x3072.Idx → EReal) (ix2 h k) := by
  obtain ⟨e0, e1⟩ := idx3 t
  unfold iblk
  rw [View.read_apply]
  show (V m c main_v0 : S1024x3072.Idx → EReal) _ = _
  rw [V_weights m c]
  refine congrArg ((m ((c : Thread nD τ).loc main_arg4)) : S1024x3072.Idx → EReal) (funext fun a => Fin.ext ?_)
  match a with
  | ⟨0, _⟩ => show win0_3.index t (0 : Fin 2) * 1024 + 1 * h.val = h.val; omega
  | ⟨1, _⟩ => show win0_3.index t (1 : Fin 2) * 3072 + 1 * k.val = k.val; omega

/-- The bias block is the bias as one row. -/
theorem blk4_apply (c : Dev nD) (t : Fin cfg0.N) (h : Fin 1024) :
    (iblk m c 4 t : Vec Ideal S1x1024 .f32) (ix2 (0 : Fin 1) h) = ((m ((c : Thread nD τ).loc main_arg5)) : S1024.Idx → EReal) (ix1 h) := by
  obtain ⟨e0, e1⟩ := idx4 t
  unfold iblk
  rw [View.read_apply]
  show (V m c main_v1 : S1x1024.Idx → EReal) _ = _
  rw [V_bias m c]
  refine (congrArg (shapeCast S1x1024 ((m ((c : Thread nD τ).loc main_arg5)) : S1024.Idx → EReal) Gen.shapeCasts_S1024_S1x1024)
    (show _ = ix2 (0 : Fin 1) h from funext fun a => Fin.ext ?_)).trans (shapeCast_a_1a_apply _ _ 0 h)
  match a with
  | ⟨0, _⟩ => show win0_4.index t (0 : Fin 2) * 1 + 1 * (0 : ℕ) = 0; omega
  | ⟨1, _⟩ => show win0_4.index t (1 : Fin 2) * 1024 + 1 * h.val = h.val; omega

theorem rows_blk0 (c : Dev nD) (t : Fin cfg0.N) :
    rows256 (iblk m c 0 t) = batchRows (R := 256) (m ((c : Thread nD τ).loc main_arg0)) (batchOf t) :=
  funext fun l => funext fun d => blk0_apply m c t l d
theorem rows_blk1 (c : Dev nD) (t : Fin cfg0.N) :
    rows256 (iblk m c 1 t) = batchRows (R := 256) (m ((c : Thread nD τ).loc main_arg1)) (batchOf t) :=
  funext fun l => funext fun d => blk1_apply m c t l d
theorem rows_blk2 (c : Dev nD) (t : Fin cfg0.N) :
    rows512 (iblk m c 2 t) = groupRows (m ((c : Thread nD τ).loc main_arg2)) (batchOf t) :=
  funext fun s => funext fun d => blk2_apply m c t s d
theorem rows_blk3 (c : Dev nD) (t : Fin cfg0.N) :
    weightRows (iblk m c 3 t) = weightsOf (m ((c : Thread nD τ).loc main_arg4)) :=
  funext fun h => funext fun k => blk3_apply m c t h k
theorem rows_blk4 (c : Dev nD) (t : Fin cfg0.N) :
    (fun h' : Fin 1024 => (iblk m c 4 t : Vec Ideal S1x1024 .f32) (ix2 (0 : Fin 1) h')) = biasOf (m ((c : Thread nD τ).loc main_arg5)) :=
  funext fun h => blk4_apply m c t h

/-! ### What each point writes back -/

/-- The three result arrays of device `c`. -/
abbrev outOf (c : Dev nD) : S80x256x1024.Idx → EReal :=
  outArr (m ((c : Thread nD τ).loc main_arg0)) (m ((c : Thread nD τ).loc main_arg1)) (m ((c : Thread nD τ).loc main_arg2)) (m ((c : Thread nD τ).loc main_arg4)) (m ((c : Thread nD τ).loc main_arg5))
abbrev exAttnOf (c : Dev nD) : S80x256x256.Idx → EReal := exAttnArr (m ((c : Thread nD τ).loc main_arg0)) (m ((c : Thread nD τ).loc main_arg1))
abbrev setAttnOf (c : Dev nD) : S80x256x512.Idx → EReal := setAttnArr (m ((c : Thread nD τ).loc main_arg0)) (m ((c : Thread nD τ).loc main_arg2))

/-- Point `t` writes back block `t` of the result array. -/
theorem flushed5_eq (c : Dev nD) (t : Fin cfg0.N) :
    (dats m 0 c).flushed 5 t = ((cfg0.win 5).blk t).view.read (Elt Ideal) (outOf m c) := by
  rw [Value.flushed5]
  funext y
  have h0 : (y 0).val < 1 := (y 0).isLt
  show out0_5 (iblk m c 0 t) (iblk m c 1 t) (iblk m c 2 t) (iblk m c 3 t) (iblk m c 4 t) y = outOf m c (((cfg0.win 5).blk t).view.emb y)
  refine (out5_at (iblk m c 0 t) (iblk m c 1 t) (iblk m c 2 t) (iblk m c 3 t) (iblk m c 4 t) y).trans ?_
  rw [rows_blk0 m c t, rows_blk1 m c t, rows_blk2 m c t, rows_blk3 m c t, rows_blk4 m c t]
  obtain ⟨e0, e1, e2⟩ := idx5 t
  rw [show ((cfg0.win 5).blk t).view.emb y = ix3 (batchOf t) (y 1) (y 2) from funext fun a => Fin.ext (by
    match a with
    | ⟨0, _⟩ => show win0_5.index t (0 : Fin 3) * 1 + 1 * (y 0).val = t.val; omega
    | ⟨1, _⟩ => show win0_5.index t (1 : Fin 3) * 256 + 1 * (y 1).val = (y 1).val; omega
    | ⟨2, _⟩ => show win0_5.index t (2 : Fin 3) * 1024 + 1 * (y 2).val = (y 2).val; omega)]
  rfl

/-- Point `t` writes back block `t` of the first weights. -/
theorem flushed6_eq (c : Dev nD) (t : Fin cfg0.N) :
    (dats m 0 c).flushed 6 t = ((cfg0.win 6).blk t).view.read (Elt Ideal) (exAttnOf m c) := by
  rw [Value.flushed6]
  funext y
  have h0 : (y 0).val < 1 := (y 0).isLt
  show out0_6 (iblk m c 0 t) (iblk m c 1 t) (iblk m c 2 t) (iblk m c 3 t) (iblk m c 4 t) y = exAttnOf m c (((cfg0.win 6).blk t).view.emb y)
  refine (out6_at (iblk m c 0 t) (iblk m c 1 t) (iblk m c 2 t) (iblk m c 3 t) (iblk m c 4 t) y).trans ?_
  rw [rows_blk0 m c t, rows_blk1 m c t]
  obtain ⟨e0, e1, e2⟩ := idx6 t
  rw [show ((cfg0.win 6).blk t).view.emb y = ix3 (batchOf t) (y 1) (y 2) from funext fun a => Fin.ext (by
    match a with
    | ⟨0, _⟩ => show win0_6.index t (0 : Fin 3) * 1 + 1 * (y 0).val = t.val; omega
    | ⟨1, _⟩ => show win0_6.index t (1 : Fin 3) * 256 + 1 * (y 1).val = (y 1).val; omega
    | ⟨2, _⟩ => show win0_6.index t (2 : Fin 3) * 256 + 1 * (y 2).val = (y 2).val; omega)]
  rfl

/-- Point `t` writes back block `t` of the second weights. -/
theorem flushed7_eq (c : Dev nD) (t : Fin cfg0.N) :
    (dats m 0 c).flushed 7 t = ((cfg0.win 7).blk t).view.read (Elt Ideal) (setAttnOf m c) := by
  rw [Value.flushed7]
  funext y
  have h0 : (y 0).val < 1 := (y 0).isLt
  show out0_7 (iblk m c 0 t) (iblk m c 1 t) (iblk m c 2 t) (iblk m c 3 t) (iblk m c 4 t) y = setAttnOf m c (((cfg0.win 7).blk t).view.emb y)
  refine (out7_at (iblk m c 0 t) (iblk m c 1 t) (iblk m c 2 t) (iblk m c 3 t) (iblk m c 4 t) y).trans ?_
  rw [rows_blk0 m c t, rows_blk2 m c t]
  obtain ⟨e0, e1, e2⟩ := idx7 t
  rw [show ((cfg0.win 7).blk t).view.emb y = ix3 (batchOf t) (y 1) (y 2) from funext fun a => Fin.ext (by
    match a with
    | ⟨0, _⟩ => show win0_7.index t (0 : Fin 3) * 1 + 1 * (y 0).val = t.val; omega
    | ⟨1, _⟩ => show win0_7.index t (1 : Fin 3) * 256 + 1 * (y 1).val = (y 1).val; omega
    | ⟨2, _⟩ => show win0_7.index t (2 : Fin 3) * 512 + 1 * (y 2).val = (y 2).val; omega)]
  rfl

/-! ### The blocks cover the arrays -/

/-- Row `b` of the array is point `b`'s block. -/
theorem cover5 (i : S80x256x1024.Idx) : ∃ t : Fin cfg0.N, (cfg0.win 5).flush t = true ∧ i ∈ ((cfg0.win 5).blk t).view.set := by
  have hN : cfg0.N = 80 := N_0
  have h0 : (i 0).val < 80 := (i 0).isLt
  have h1 : (i 1).val < 256 := (i 1).isLt
  have h2 : (i 2).val < 1024 := (i 2).isLt
  obtain ⟨t, ht⟩ : ∃ t : Fin cfg0.N, t.val = (i 0).val := ⟨⟨(i 0).val, by rw [hN]; exact h0⟩, rfl⟩
  obtain ⟨e0, e1, e2⟩ := idx5 t
  refine ⟨t, flush0_5 t, ?_⟩
  show i ∈ ((View.whole main_v2_0).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

/-- Row `b` of the array is point `b`'s block. -/
theorem cover6 (i : S80x256x256.Idx) : ∃ t : Fin cfg0.N, (cfg0.win 6).flush t = true ∧ i ∈ ((cfg0.win 6).blk t).view.set := by
  have hN : cfg0.N = 80 := N_0
  have h0 : (i 0).val < 80 := (i 0).isLt
  have h1 : (i 1).val < 256 := (i 1).isLt
  have h2 : (i 2).val < 256 := (i 2).isLt
  obtain ⟨t, ht⟩ : ∃ t : Fin cfg0.N, t.val = (i 0).val := ⟨⟨(i 0).val, by rw [hN]; exact h0⟩, rfl⟩
  obtain ⟨e0, e1, e2⟩ := idx6 t
  refine ⟨t, flush0_6 t, ?_⟩
  show i ∈ ((View.whole main_v2_1).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 256 ≤ (i 2).val ∧ (i 2).val < win0_6.index t (2 : Fin 3) * 256 + 256; omega

/-- Row `b` of the array is point `b`'s block. -/
theorem cover7 (i : S80x256x512.Idx) : ∃ t : Fin cfg0.N, (cfg0.win 7).flush t = true ∧ i ∈ ((cfg0.win 7).blk t).view.set := by
  have hN : cfg0.N = 80 := N_0
  have h0 : (i 0).val < 80 := (i 0).isLt
  have h1 : (i 1).val < 256 := (i 1).isLt
  have h2 : (i 2).val < 512 := (i 2).isLt
  obtain ⟨t, ht⟩ : ∃ t : Fin cfg0.N, t.val = (i 0).val := ⟨⟨(i 0).val, by rw [hN]; exact h0⟩, rfl⟩
  obtain ⟨e0, e1, e2⟩ := idx7 t
  refine ⟨t, flush0_7 t, ?_⟩
  show i ∈ ((View.whole main_v2_2).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 512 ≤ (i 2).val ∧ (i 2).val < win0_7.index t (2 : Fin 3) * 512 + 512; omega

/-! ### The arrays after the run, and the run -/

theorem final5 (c : Dev nD) : (dats m 0 c).arrAt 5 cfg0.N = outOf m c :=
  (dats m 0 c).arrAt_eq_of_cover 5 (outOf m c) (fun t _ => flushed5_eq m c t) cover5
theorem final6 (c : Dev nD) : (dats m 0 c).arrAt 6 cfg0.N = exAttnOf m c :=
  (dats m 0 c).arrAt_eq_of_cover 6 (exAttnOf m c) (fun t _ => flushed6_eq m c t) cover6
theorem final7 (c : Dev nD) : (dats m 0 c).arrAt 7 cfg0.N = setAttnOf m c :=
  (dats m 0 c).arrAt_eq_of_cover 7 (setAttnOf m c) (fun t _ => flushed7_eq m c t) cover7

/-- The kernel's run, read: the three result arrays at their functions of the argument arrays, the arguments unchanged. -/
theorem run : θ_run defs (onTc (τ := τ) (main (F := Ideal))) ⟨m, fun _ => 0, ρ⟩ fun r => ∀ c : Dev nD,
      r.2.mem ((c : Thread nD τ).loc main_v2_0) = outOf m c
      ∧ r.2.mem ((c : Thread nD τ).loc main_v2_1) = exAttnOf m c
      ∧ r.2.mem ((c : Thread nD τ).loc main_v2_2) = setAttnOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final5 m c), (h c).2.1.trans (final6 m c),
      (h c).2.2.1.trans (final7 m c), (h c).2.2.2⟩)
    (Value.run_blocks m ρ)

end Cert.KernelIdeal.Whole

end
-- ==== Proof.lean ====
/-
  The kernel against its reference, at the extended reals.

  Both programs take queries `x` and first keys `c0` ([80, 256, 1024]), second keys `c1` ([8, 512, 1024], one row per
  group of ten batches), a mask they do not use, weights `w` ([1024, 3072]) and a bias `β` ([1024]), and return three
  arrays. For batch `b`, with `Q` its query rows, `K0` its first keys' rows and `K1` the rows of group `b / 10` of the
  second keys:
    · the weights `attn Q K0` ([256, 256]) and `attn Q K1` ([256, 512]): the softmax along each row of the scores
      `∑ d, Q l d * K s d`, taken by subtracting the row's maximum, exponentiating and dividing by the row's sum;
    · the result `tanh (∑ k, J l k * w h k + β h)` ([256, 1024]), where row `l` of `J` is the query row, its context
      `∑ s, attn Q K0 l s * K0 s ·` and its context over `K1`, laid end to end.
  The kernel computes this one batch per grid point, on blocks, with its products fed in a narrower float format; the
  reference computes it on whole arrays, repeating each group's keys ten times. At the extended reals a change of float
  format is the identity, a product into a zero accumulator and the host's product are the same sum, a lane reduction and
  the host's reduction are the same fold, and the reference's extra maximum with `-∞` changes nothing: both runs end with
  the three arrays at the functions of `ArrayAttention.lean`, index by index. No law used needs the inputs to be finite
  (only that sums and maxima may be taken in any order), so the precondition is not opened.

  The kernel's frames are the generated ones; the reference's frame is its run with the results dropped. The kernel's
  idealization rewrote nothing, so there is nothing to preserve.
-/
import proofs.«172039_j73813307949260_1_alg».proof.Defs
import proofs.«172039_j73813307949260_1_alg».proof.Proof.Gen.Kernel
import proofs.«172039_j73813307949260_1_alg».proof.Proof.Gen.Kernel.Skeleton
import proofs.«172039_j73813307949260_1_alg».proof.Proof.Gen.Kernel.Launch
import proofs.«172039_j73813307949260_1_alg».proof.Proof.Gen.Kernel.Points
import proofs.«172039_j73813307949260_1_alg».proof.Proof.Gen.Kernel.Frame
import proofs.«172039_j73813307949260_1_alg».proof.Proof.Gen.KernelIdeal
import proofs.«172039_j73813307949260_1_alg».proof.Proof.Gen.KernelIdeal.Skeleton
import proofs.«172039_j73813307949260_1_alg».proof.Proof.Gen.KernelIdeal.Launch
import proofs.«172039_j73813307949260_1_alg».proof.Proof.Gen.KernelIdeal.Points
import proofs.«172039_j73813307949260_1_alg».proof.Proof.Gen.KernelIdeal.Frame
import proofs.«172039_j73813307949260_1_alg».proof.Proof.Gen.ReferenceIdeal
import proofs.«172039_j73813307949260_1_alg».proof.Proof.Gen.Pre_finite_inputs
import proofs.«172039_j73813307949260_1_alg».proof.Proof.Gen.KernelIdeal.Value
import proofs.«172039_j73813307949260_1_alg».proof.Proof.RefRun
import proofs.«172039_j73813307949260_1_alg».proof.Proof.RefRead
import proofs.«172039_j73813307949260_1_alg».proof.Proof.RefAttention
import proofs.«172039_j73813307949260_1_alg».proof.Proof.KernelValue
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a line of host operations: it runs, and none of them writes an argument. -/
theorem frame_referenceIdeal : Cert.frame_ReferenceIdeal := fun m ρ _ =>
  (θ_run Cert.ReferenceIdeal.defs _ _).mono (fun _ h c => (h c).2.2.2) (Cert.ReferenceIdeal.RunP.run (F := Ideal) m ρ)

/-- The idealization rewrote no operation. -/
theorem preserves : Cert.preserves_Kernel_KernelIdeal := trivial

/-- From memories that agree on the arguments, both programs end with the result, the first weights and the second weights at
    the same functions of the arguments. -/
theorem algebraic : Cert.algebraic_KernelIdeal_ReferenceIdeal := by
  intro m ρ m' ρ' _ hagree
  refine ⟨fun c => Cert.KernelIdeal.Whole.outOf m c, fun c => Cert.KernelIdeal.Whole.exAttnOf m c,
    fun c => Cert.KernelIdeal.Whole.setAttnOf m c, Cert.KernelIdeal.Whole.run m ρ, ?_⟩
  refine (θ_run Cert.ReferenceIdeal.defs _ _).mono (fun _ h c => ?_) (Cert.ReferenceIdeal.RunP.run (F := Ideal) m' ρ')
  obtain ⟨h0, h1, h2, hrest⟩ := h c
  obtain ⟨a0, a1, a2, _, a4, a5⟩ := hagree c
  refine ⟨?_, ?_, ?_, hrest⟩
  · rw [h0, Cert.ReferenceIdeal.ReadP.val_main_v33_eq, Cert.ReferenceIdeal.Bridge.out_eq, a0, a1, a2, a4, a5]
  · rw [h1, Cert.ReferenceIdeal.ReadP.val_main_v13_eq, Cert.ReferenceIdeal.Bridge.exAttn_eq, a0, a1]
  · rw [h2, Cert.ReferenceIdeal.ReadP.val_main_v25_eq, Cert.ReferenceIdeal.Bridge.setAttn_eq, a0, a2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
